-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part4 {F : FTy → Type} [FloatOps F] (main_arg14 : FVec F S2048 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  main_v73

def fn_part3 {F : FTy → Type} [FloatOps F] (main_arg11 : FVec F S2048 .f32) (main_arg12 : FVec F S2048x2048 .f32) (main_arg13 : FVec F S2048x2048 .f32) (main_arg14 : FVec F S2048 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x2048 .f32 := Host.absf main_arg12
  let main_cst_22 : FVec F S_ .f32 := constant S_ .f32 0x7F800000#32
  let main_v60 : FVec F S2048x2048 .f32 := broadcastInDim S2048x2048 ![] bcast_S_S2048x2048 main_cst_22
  let main_v61 : IVec S2048x2048 1 := cmpf .olt main_v59 main_v60
  let main_c_23 : IVec S_ 1 := constantI S_ 1 1#1
  let main_v62 : IVec S_ 1 := (fun x v => Host.reduce IntOp.andi x v reducesTo_S2048x2048_S_d0_1 h_S_) main_v61 main_c_23
  let main_v63 : IVec S_ 1 := andi main_v58 main_v62
  let main_v64 : FVec F S2048x2048 .f32 := Host.absf main_arg13
  let main_cst_24 : FVec F S_ .f32 := constant S_ .f32 0x7F800000#32
  let main_v65 : FVec F S2048x2048 .f32 := broadcastInDim S2048x2048 ![] bcast_S_S2048x2048 main_cst_24
  let main_v66 : IVec S2048x2048 1 := cmpf .olt main_v64 main_v65
  let main_c_25 : IVec S_ 1 := constantI S_ 1 1#1
  let main_v67 : IVec S_ 1 := (fun x v => Host.reduce IntOp.andi x v reducesTo_S2048x2048_S_d0_1 h_S_) main_v66 main_c_25
  fn_part4 (F := F) main_arg14 main_v63 main_v67

def fn_part2 {F : FTy → Type} [FloatOps F] (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_v33 : IVec S_ 1) : IVec S_ 1 :=
  let main_v34 : FVec F S2048x2048 .f32 := Host.absf main_arg7
  let main_cst_12 : FVec F S_ .f32 := constant S_ .f32 0x7F800000#32
  let main_v35 : FVec F S2048x2048 .f32 := broadcastInDim S2048x2048 ![] bcast_S_S2048x2048 main_cst_12
  let main_v36 : IVec S2048x2048 1 := cmpf .olt main_v34 main_v35
  let main_c_13 : IVec S_ 1 := constantI S_ 1 1#1
  let main_v37 : IVec S_ 1 := (fun x v => Host.reduce IntOp.andi x v reducesTo_S2048x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S2048x2048 .f32 := Host.absf main_arg9
  let main_cst_16 : FVec F S_ .f32 := constant S_ .f32 0x7F800000#32
  let main_v45 : FVec F S2048x2048 .f32 := broadcastInDim S2048x2048 ![] bcast_S_S2048x2048 main_cst_16
  let main_v46 : IVec S2048x2048 1 := cmpf .olt main_v44 main_v45
  let main_c_17 : IVec S_ 1 := constantI S_ 1 1#1
  let main_v47 : IVec S_ 1 := (fun x v => Host.reduce IntOp.andi x v reducesTo_S2048x2048_S_d0_1 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_v48 main_v49 main_v50

def fn_part1 {F : FTy → Type} [FloatOps F] (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4096x2048 .f32) (main_arg1 : FVec F S4096x2048 .f32) (main_arg2 : FVec F S4096x2048 .f32) (main_arg3 : FVec F S2048x2048 .f32) (main_arg4 : FVec F S2048x2048 .f32) (main_arg5 : FVec F S2048 .f32) (main_arg6 : FVec F S2048x2048 .f32) (main_arg7 : FVec F S2048x2048 .f32) (main_arg8 : FVec F S2048 .f32) (main_arg9 : FVec F S2048x2048 .f32) (main_arg10 : FVec F S2048x2048 .f32) (main_arg11 : FVec F S2048 .f32) (main_arg12 : FVec F S2048x2048 .f32) (main_arg13 : FVec F S2048x2048 .f32) (main_arg14 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S1024x256 : Shape := ⟨2, ![1024, 256]⟩
abbrev S256x512 : Shape := ⟨2, ![256, 512]⟩
abbrev S1x512 : Shape := ⟨2, ![1, 512]⟩
abbrev S1024x512 : Shape := ⟨2, ![1024, 512]⟩

abbrev nBuf : Space → Nat
  | .hbm => 31
  | .vmem => 38
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S4096x2048, .bf16⟩
  | .hbm, ⟨16, _⟩ => ⟨S4096x2048, .bf16⟩
  | .hbm, ⟨17, _⟩ => ⟨S2048x2048, .bf16⟩
  | .hbm, ⟨18, _⟩ => ⟨S2048x2048, .bf16⟩
  | .hbm, ⟨19, _⟩ => ⟨S2048x2048, .bf16⟩
  | .hbm, ⟨20, _⟩ => ⟨S2048x2048, .bf16⟩
  | .hbm, ⟨21, _⟩ => ⟨S2048x2048, .bf16⟩
  | .hbm, ⟨22, _⟩ => ⟨S2048x2048, .bf16⟩
  | .hbm, ⟨23, _⟩ => ⟨S2048x2048, .bf16⟩
  | .hbm, ⟨24, _⟩ => ⟨S2048x2048, .bf16⟩
  | .hbm, ⟨25, _⟩ => ⟨S1x2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S1x512, .f32⟩
  | .local _ .vmem, ⟨9, _⟩ => ⟨S1x512, .f32⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S1x512, .f32⟩
  | .local _ .vmem, ⟨15, _⟩ => ⟨S1x512, .f32⟩
  | .local _ .vmem, ⟨16, _⟩ => ⟨S256x512, .bf16⟩
  | .local _ .vmem, ⟨17, _⟩ => ⟨S256x512, .bf16⟩
  | .local _ .vmem, ⟨18, _⟩ => ⟨S256x512, .bf16⟩
  | .local _ .vmem, ⟨19, _⟩ => ⟨S256x512, .bf16⟩
  | .local _ .vmem, ⟨20, _⟩ => ⟨S1x512, .f32⟩
  | .local _ .vmem, ⟨21, _⟩ => ⟨S1x512, .f32⟩
  | .local _ .vmem, ⟨22, _⟩ => ⟨S256x512, .bf16⟩
  | .local _ .vmem, ⟨23, _⟩ => ⟨S256x512, .bf16⟩
  | .local _ .vmem, ⟨24, _⟩ => ⟨S256x512, .bf16⟩
  | .local _ .vmem, ⟨25, _⟩ => ⟨S256x512, .bf16⟩
  | .local _ .vmem, ⟨26, _⟩ => ⟨S1x512, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1024x512, .f32⟩
  | .local _ .vmem, ⟨31, _⟩ => ⟨S1024x512, .f32⟩
  | .local _ .vmem, ⟨32, _⟩ => ⟨S1024x512, .f32⟩
  | .local _ .vmem, ⟨33, _⟩ => ⟨S1024x512, .f32⟩
  | .local _ .vmem, ⟨34, _⟩ => ⟨S1024x512, .f32⟩
  | .local _ .vmem, ⟨35, _⟩ => ⟨S1024x512, .f32⟩
  | .local _ .vmem, ⟨36, _⟩ => ⟨S1024x512, .f32⟩
  | .local _ .vmem, ⟨37, _⟩ => ⟨S1024x512, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c7_i32 : BitVec 32 := 7#32
  let v71 : BitVec 1 := Scalar.cmpi .eq arg2 c7_i32
  let v72 : BitVec 32 := Scalar.extui v71
  let c0_i32_59 : BitVec 32 := 0#32
  let v73 : BitVec 1 := Scalar.cmpi .ne v72 c0_i32_59
  v73

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S256x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S256x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, true]

abbrev stage0_13 : Fin 2 → Memref sig .tc .vmem S1x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1024x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, false]

abbrev stage0_15 : Fin 2 → Memref sig .tc .vmem S1024x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1024x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

class Facts₀ : Prop where
  bitsLt_bf16_f32 : FTy.bits .bf16 < FTy.bits .f32
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x2048.size a
  hwx0_0 : ∀ i : grid0.Coords, EltTy.bits .bf16 = 32 ∨ (Rect.block (s := S4096x2048) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S4096x2048.size a
  hwx0_1 : ∀ i : grid0.Coords, EltTy.bits .bf16 = 32 ∨ (Rect.block (s := S4096x2048) S1024x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S2048x2048.size a
  hwx0_2 : ∀ i : grid0.Coords, EltTy.bits .bf16 = 32 ∨ (Rect.block (s := S2048x2048) S256x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S2048x2048.size a
  hwx0_3 : ∀ i : grid0.Coords, EltTy.bits .bf16 = 32 ∨ (Rect.block (s := S2048x2048) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x2048.size a
  hwx0_4 : ∀ i : grid0.Coords, EltTy.bits .f32 = 32 ∨ (Rect.block (s := S1x2048) S1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x512.size a ≤ S2048x2048.size a
  hwx0_5 : ∀ i : grid0.Coords, EltTy.bits .bf16 = 32 ∨ (Rect.block (s := S2048x2048) S256x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S2048x2048.size a
  hwx0_6 : ∀ i : grid0.Coords, EltTy.bits .bf16 = 32 ∨ (Rect.block (s := S2048x2048) S256x512.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x512.size a ≤ S2048x2048.size a
  hwx0_8 : ∀ i : grid0.Coords, EltTy.bits .bf16 = 32 ∨ (Rect.block (s := S2048x2048) S256x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x512.size a ≤ S2048x2048.size a
  hwx0_9 : ∀ i : grid0.Coords, EltTy.bits .bf16 = 32 ∨ (Rect.block (s := S2048x2048) S256x512.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x512.size a ≤ S1x2048.size a
  hwx0_10 : ∀ i : grid0.Coords, EltTy.bits .f32 = 32 ∨ (Rect.block (s := S1x2048) S1x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x512.size a ≤ S2048x2048.size a
  hwx0_11 : ∀ i : grid0.Coords, EltTy.bits .bf16 = 32 ∨ (Rect.block (s := S2048x2048) S256x512.size (cc0_transform_11 i) (hinb0_11 i)).WholeWords (EltTy.packing .bf16)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S256x512.size a ≤ S2048x2048.size a
  hwx0_12 : ∀ i : grid0.Coords, EltTy.bits .bf16 = 32 ∨ (Rect.block (s := S2048x2048) S256x512.size (cc0_transform_12 i) (hinb0_12 i)).WholeWords (EltTy.packing .bf16)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x512.size a ≤ S1x2048.size a
  hwx0_13 : ∀ i : grid0.Coords, EltTy.bits .f32 = 32 ∨ (Rect.block (s := S1x2048) S1x512.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1024x512.size a ≤ S4096x2048.size a
  hwx0_14 : ∀ i : grid0.Coords, EltTy.bits .f32 = 32 ∨ (Rect.block (s := S4096x2048) S1024x512.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x512.size a ≤ S4096x2048.size a
  hwx0_15 : ∀ i : grid0.Coords, EltTy.bits .f32 = 32 ∨ (Rect.block (s := S4096x2048) S1024x512.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x512.size a ≤ S4096x2048.size a
  hwx0_16 : ∀ i : grid0.Coords, EltTy.bits .f32 = 32 ∨ (Rect.block (s := S4096x2048) S1024x512.size (cc0_transform_16 i) (hinb0_16 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_v0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S256x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v11) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S256x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v7) S256x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v12) S1x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v8) S256x512.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v9) S256x512.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x512.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S1024x512.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S1024x512.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S1024x512.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S2048x2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048x2048, .f32⟩
  | .hbm, ⟨13, _⟩ => ⟨S2048x2048, .f32⟩
  | .hbm, ⟨14, _⟩ => ⟨S2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S1x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_1 : Ref sig .tc := ⟨.hbm, 37, rfl⟩
abbrev main_v20 : Ref sig .tc := ⟨.hbm, 38, rfl⟩
abbrev main_v21 : Ref sig .tc := ⟨.hbm, 39, rfl⟩
abbrev main_cst_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x2048_S2048x2048_S4096x2048_1_0_0_1_n_n_wf : DotDims.WF S4096x2048 S2048x2048 S4096x2048 [1] [0] [0] [1] [] []

variable [Facts₀]

def dot_S4096x2048_S2048x2048_S4096x2048_1_0_0_1_n_n : DotDims S4096x2048 S2048x2048 S4096x2048 where
  lhsContracting := [1]
  rhsContracting := [0]
  lhsNonContracting := [0]
  rhsNonContracting := [1]
  lhsBatch := []
  rhsBatch := []
  wf := dot_S4096x2048_S2048x2048_S4096x2048_1_0_0_1_n_n_wf

class Facts : Prop extends Facts₀ where

variable [Facts]
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.Tile.lean ====
import proofs.«177769_j16183436772221_2_alg».proof.Proof.Gen.KernelIdeal.Skeleton
import proofs.«177769_j16183436772221_2_alg».proof.Proof.LibPlainDot
import Idealize.ShloMosaic.Lib.Pipeline.Value
import Idealize.ShloMosaic.Lib.ValueIdx
import Idealize.ShloMosaic.PureOps.Ideal.Laws

/-!
# One tile of the kernel's arithmetic

At a grid point the kernel body holds a 1024 × 512 tile of each gate's running value. One step adds to it the
product of the point's 1024 × 256 block of `x` with a 256 × 512 block of `Wx`, and then the product of the block of
`h` with the block of `Wh` (`step`); at the first step of a run the running value is the zero tile. At the last step
the four running values, the four 1 × 512 bias rows and the tile of `c` give the tile of the new cell state
(`k0_pay3`) and of the new hidden state (`k0_pay4`).

Here the body's stored values are first written as `step`s (the same-shape casts are the identity), and then
`step` and the two last values are read at an entry `(r, s)` of the tile on the extended reals.
-/

noncomputable section

namespace Cert.KernelIdeal.Tile

open Cert.KernelIdeal Cert.KernelIdeal.Gen Idealize.ShloMosaic Idealize.ShloMosaic.ValueIdx

variable {F : FTy → Type} [FloatOps F]

/-- One step of a gate's running tile: `(acc + x · Wx) + h · Wh`, each product into a zero accumulator. -/
def step (acc : Vec F S1024x512 .f32) (x : Vec F S1024x256 .bf16) (wx : Vec F S256x512 .bf16)
    (h : Vec F S1024x256 .bf16) (wh : Vec F S256x512 .bf16) : Vec F S1024x512 .f32 :=
  addf (addf acc (matmul dot_S1024x256_S256x512_S1024x512_1_0_0_1_n_n none x wx (constant S1024x512 .f32 0x00000000#32)))
    (matmul dot_S1024x256_S256x512_S1024x512_1_0_0_1_n_n none h wh (constant S1024x512 .f32 0x00000000#32))

/-- The zero tile a run starts from. -/
def zero : Vec F S1024x512 .f32 := broadcast S1024x512 (Scalar.ofBits .f32 0x00000000#32)

/-! ## The stored values are steps -/

/-- The input gate's two stores of a point, one after the other. -/
theorem step_i (acc : Vec F S1024x512 .f32) (x h : Vec F S1024x256 .bf16) (wx wh : Vec F S256x512 .bf16) :
    k0_pay12 h (k0_pay11 x acc wx) wh = step acc x wx h wh := by
  unfold k0_pay12 k0_pay11 k0_pay10 k0_pay9 step
  simp only [shapeCast_self]

/-- The forget gate's. -/
theorem step_f (acc : Vec F S1024x512 .f32) (x h : Vec F S1024x256 .bf16) (wx wh : Vec F S256x512 .bf16) :
    k0_pay15 (k0_pay10 h) (k0_pay14 (k0_pay13 x acc wx)) wh = step acc x wx h wh := by
  unfold k0_pay15 k0_pay14 k0_pay13 k0_pay10 k0_pay9 step
  simp only [shapeCast_self]

/-- The candidate's. -/
theorem step_c (acc : Vec F S1024x512 .f32) (x h : Vec F S1024x256 .bf16) (wx wh : Vec F S256x512 .bf16) :
    k0_pay17 (k0_pay10 h) (k0_pay16 (k0_pay9 x) acc wx) wh = step acc x wx h wh := by
  unfold k0_pay17 k0_pay16 k0_pay10 k0_pay9 step
  simp only [shapeCast_self]

/-- The output gate's. -/
theorem step_o (acc : Vec F S1024x512 .f32) (x h : Vec F S1024x256 .bf16) (wx wh : Vec F S256x512 .bf16) :
    k0_pay2 (k0_pay10 h) (k0_pay1 (k0_pay9 x) acc (k0_pay18 wx)) wh = step acc x wx h wh := by
  unfold k0_pay2 k0_pay1 k0_pay18 k0_pay10 k0_pay9 step
  simp only [shapeCast_self]

theorem zero_i : (k0_pay5 : Vec F S1024x512 .f32) = zero := by unfold k0_pay5 zero; simp only [shapeCast_self]
theorem zero_f : (k0_pay6 : Vec F S1024x512 .f32) = zero := by unfold k0_pay6 zero; simp only [shapeCast_self]
theorem zero_c : (k0_pay7 : Vec F S1024x512 .f32) = zero := by unfold k0_pay7 zero; simp only [shapeCast_self]
theorem zero_o : (k0_pay8 : Vec F S1024x512 .f32) = zero := by unfold k0_pay8 zero; simp only [shapeCast_self]

/-! ## Read at an entry, on the extended reals -/

theorem plain : Cert.PlainDot.IsPlain dot_S1024x256_S256x512_S1024x512_1_0_0_1_n_n := ⟨rfl, rfl, rfl, rfl, rfl, rfl⟩

/-- Entry `(r, s)` after a step: the entry before, plus row `r` of the `x` block against column `s` of the `Wx`
    block, plus row `r` of the `h` block against column `s` of the `Wh` block. -/
theorem step_apply (acc : Vec Ideal S1024x512 .f32) (x h : Vec Ideal S1024x256 .bf16) (wx wh : Vec Ideal S256x512 .bf16)
    (r : Fin 1024) (s : Fin 512) :
    step (F := Ideal) acc x wx h wh (ix2 r s)
      = (acc (ix2 r s) + ∑ k : Fin 256, x (ix2 r k) * wx (ix2 k s)) + ∑ k : Fin 256, h (ix2 r k) * wh (ix2 k s) := by
  unfold step
  rw [addf_apply, addf_apply]
  simp only [matmul]
  rw [Ideal.matmul_constant_zero_apply, Ideal.matmul_constant_zero_apply,
    Cert.PlainDot.sum_contr _ plain x wx r s, Cert.PlainDot.sum_contr _ plain h wh r s]

theorem zero_apply (r : Fin 1024) (s : Fin 512) : (zero (F := Ideal)) (ix2 r s) = 0 := by
  unfold zero
  rw [broadcast_apply]
  exact Ideal.ofBits_zero_f32

/-- A 1 × 512 bias row spread over the 1024 rows, read at `(r, s)`: the row's entry `s`. -/
theorem biasRow_apply (b : Vec Ideal S1x512 .f32) (r : Fin 1024) (s : Fin 512) :
    broadcastTo S1024x512 (shapeCast S1x512 b shapeCasts_S1x512_S1x512) broadcasts_S1x512_S1024x512 (ix2 r s)
      = b (ix2 (0 : Fin 1) s) := by
  rw [shapeCast_self]
  refine broadcastTo_apply b _ _ _ (fun a => ?_)
  match a with
  | ⟨0, _⟩ => rfl
  | ⟨1, _⟩ => rfl

/-- The new cell state's tile at `(r, s)`. -/
theorem cell_apply (ai af ac cx : Vec Ideal S1024x512 .f32) (bi bf bc : Vec Ideal S1x512 .f32) (r : Fin 1024) (s : Fin 512) :
    k0_pay3 (F := Ideal) ai bi af bf ac bc cx (ix2 r s)
      = Ideal.logistic (af (ix2 r s) + bf (ix2 (0 : Fin 1) s)) * cx (ix2 r s)
        + Ideal.logistic (ai (ix2 r s) + bi (ix2 (0 : Fin 1) s)) * Ideal.tanh (ac (ix2 r s) + bc (ix2 (0 : Fin 1) s)) := by
  unfold k0_pay3
  simp only [addf, mulf, logistic, tanh, Ideal.addf_def, Ideal.mulf_def, Ideal.logistic_def, Ideal.tanh_def]
  rw [biasRow_apply bf r s, biasRow_apply bi r s, biasRow_apply bc r s]

/-- The new hidden state's tile at `(r, s)`. -/
theorem hidden_apply (ai af ac cx ao : Vec Ideal S1024x512 .f32) (bi bf bc bo : Vec Ideal S1x512 .f32) (r : Fin 1024) (s : Fin 512) :
    k0_pay4 (F := Ideal) ai bi af bf ac bc cx ao bo (ix2 r s)
      = Ideal.logistic (ao (ix2 r s) + bo (ix2 (0 : Fin 1) s))
        * Ideal.tanh (k0_pay3 (F := Ideal) ai bi af bf ac bc cx (ix2 r s)) := by
  unfold k0_pay4
  simp only [addf, mulf, logistic, tanh, Ideal.addf_def, Ideal.mulf_def, Ideal.logistic_def, Ideal.tanh_def]
  rw [biasRow_apply bo r s]

end Cert.KernelIdeal.Tile

end
-- ==== Proof.Pieces.lean ====
import proofs.«177769_j16183436772221_2_alg».proof.Proof.Gen.KernelIdeal.Frame
import proofs.«177769_j16183436772221_2_alg».proof.Proof.Tile

/-!
# What one grid point leaves behind

The kernel body runs in one of three ways, by the position `k` of the point in its run of 8: at `k = 0` it first
zeroes the four running tiles; at every `k` it makes one step of each; at `k = 7` it also writes the two result
tiles. Here each stored tile, as the frame proof's run found it (a list of stored pieces, read back), is written as
a plain function of the point's input blocks and of the running tiles the point before left: a `Tile.step` from
`Tile.zero` (first point), a `Tile.step` from what was there (later points), and at the last point the cell and
hidden tiles over the four freshly stepped running tiles. Every store covers its whole tile, so the last store
into a tile decides what it holds, and a load after a store reads what was stored.
-/

set_option maxRecDepth 16384

noncomputable section

namespace Cert.KernelIdeal.Pieces

open Cert.KernelIdeal Cert.KernelIdeal.Gen Idealize.ShloMosaic Idealize.ShloMosaic.TcCoe Idealize.ShloMosaic.Tactic

variable {F : FTy → Type} [FloatOps F]

variable (c : Dev nD) (i : grid0.Coords) (arg3 : Memref sig .tc .vmem S1024x256 .bf16) (harg3 : arg3.IsWhole) (arg4 : Memref sig .tc .vmem S1024x256 .bf16) (harg4 : arg4.IsWhole) (arg5 : Memref sig .tc .vmem S256x512 .bf16) (harg5 : arg5.IsWhole) (arg6 : Memref sig .tc .vmem S256x512 .bf16) (harg6 : arg6.IsWhole) (arg7 : Memref sig .tc .vmem S1x512 .f32) (harg7 : arg7.IsWhole) (arg8 : Memref sig .tc .vmem S256x512 .bf16) (harg8 : arg8.IsWhole) (arg9 : Memref sig .tc .vmem S256x512 .bf16) (harg9 : arg9.IsWhole) (arg10 : Memref sig .tc .vmem S1x512 .f32) (harg10 : arg10.IsWhole) (arg11 : Memref sig .tc .vmem S256x512 .bf16) (harg11 : arg11.IsWhole) (arg12 : Memref sig .tc .vmem S256x512 .bf16) (harg12 : arg12.IsWhole) (arg13 : Memref sig .tc .vmem S1x512 .f32) (harg13 : arg13.IsWhole) (arg14 : Memref sig .tc .vmem S256x512 .bf16) (harg14 : arg14.IsWhole) (arg15 : Memref sig .tc .vmem S256x512 .bf16) (harg15 : arg15.IsWhole) (arg16 : Memref sig .tc .vmem S1x512 .f32) (harg16 : arg16.IsWhole) (arg17 : Memref sig .tc .vmem S1024x512 .f32) (harg17 : arg17.IsWhole) (arg18 : Memref sig .tc .vmem S1024x512 .f32) (harg18 : arg18.IsWhole) (arg19 : Memref sig .tc .vmem S1024x512 .f32) (harg19 : arg19.IsWhole) (arg20 : Memref sig .tc .vmem S1024x512 .f32) (harg20 : arg20.IsWhole) (arg21 : Memref sig .tc .vmem S1024x512 .f32) (harg21 : arg21.IsWhole) (arg22 : Memref sig .tc .vmem S1024x512 .f32) (harg22 : arg22.IsWhole) (arg23 : Memref sig .tc .vmem S1024x512 .f32) (harg23 : arg23.IsWhole)
  (x0 : Vec F S1024x256 .bf16) (x1 : Vec F S1024x256 .bf16) (x2 : Vec F S256x512 .bf16) (x3 : Vec F S256x512 .bf16) (x4 : Vec F S1x512 .f32) (x5 : Vec F S256x512 .bf16) (x6 : Vec F S256x512 .bf16) (x7 : Vec F S1x512 .f32) (x8 : Vec F S256x512 .bf16) (x9 : Vec F S256x512 .bf16) (x10 : Vec F S1x512 .f32) (x11 : Vec F S256x512 .bf16) (x12 : Vec F S256x512 .bf16) (x13 : Vec F S1x512 .f32) (x14 : Vec F S1024x512 .f32) (xs0 xs1 xs2 xs3 : Vec F S1024x512 .f32)

/-- A tile's offset `(0, 0)`. -/
theorem hz : (![0, 0] : Fin 2 → Nat) = fun _ => 0 := funext fun a => by
  match a with | ⟨0, _⟩ => rfl | ⟨1, _⟩ => rfl

/-! ## The first point of a run: a step from zero -/

/-- The input gate's running tile after the first point of a run. -/
theorem first_i (hc0 : cond0_0 i) (hc1 : ¬cond0_1 i) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = Tile.step Tile.zero x0 x2 x1 x3 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun0_A
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.zero_i, Tile.step_i]

/-- The forget gate's running tile after the first point of a run. -/
theorem first_f (hc0 : cond0_0 i) (hc1 : ¬cond0_1 i) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = Tile.step Tile.zero x0 x5 x1 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun0_A
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.zero_f, Tile.step_f]

/-- The candidate's running tile after the first point of a run. -/
theorem first_c (hc0 : cond0_0 i) (hc1 : ¬cond0_1 i) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = Tile.step Tile.zero x0 x8 x1 x9 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun0_A
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.zero_c, Tile.step_c]

/-- The output gate's running tile after the first point of a run. -/
theorem first_o (hc0 : cond0_0 i) (hc1 : ¬cond0_1 i) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 = Tile.step Tile.zero x0 x11 x1 x12 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14)]
  unfold kernelRun0_A
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.zero_o, Tile.step_o]

/-! ## A later point: a step from what the point before left -/

/-- The input gate's running tile after a point in the middle of a run. -/
theorem later_i (hc0 : ¬cond0_0 i) (hc1 : ¬cond0_1 i) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs0 x0 x2 x1 x3 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_B
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_i]

/-- The forget gate's running tile after a point in the middle of a run. -/
theorem later_f (hc0 : ¬cond0_0 i) (hc1 : ¬cond0_1 i) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs1 x0 x5 x1 x6 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_B
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_f]

/-- The candidate's running tile after a point in the middle of a run. -/
theorem later_c (hc0 : ¬cond0_0 i) (hc1 : ¬cond0_1 i) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs2 x0 x8 x1 x9 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_B
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_c]

/-- The output gate's running tile after a point in the middle of a run. -/
theorem later_o (hc0 : ¬cond0_0 i) (hc1 : ¬cond0_1 i) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs3 x0 x11 x1 x12 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_B
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_o]

/-! ## The last point of a run: one more step, and the two results -/

/-- The input gate's running tile after the last point of a run. -/
theorem last_i (hc0 : ¬cond0_0 i) (hc1 : cond0_1 i) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs0 x0 x2 x1 x3 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_C
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_i]

/-- The forget gate's running tile after the last point of a run. -/
theorem last_f (hc0 : ¬cond0_0 i) (hc1 : cond0_1 i) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs1 x0 x5 x1 x6 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_C
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_f]

/-- The candidate's running tile after the last point of a run. -/
theorem last_c (hc0 : ¬cond0_0 i) (hc1 : cond0_1 i) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs2 x0 x8 x1 x9 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_C
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_c]

/-- The output gate's running tile after the last point of a run. -/
theorem last_o (hc0 : ¬cond0_0 i) (hc1 : cond0_1 i) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = Tile.step xs3 x0 x11 x1 x12 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_C
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_o]

/-- The new cell state's tile, written at the last point of a run over the freshly stepped running tiles. -/
theorem last_cell (hc0 : ¬cond0_0 i) (hc1 : cond0_1 i) :
    out0_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay3 (Tile.step xs0 x0 x2 x1 x3) x4 (Tile.step xs1 x0 x5 x1 x6) x7 (Tile.step xs2 x0 x8 x1 x9) x10 x14 := by
  unfold out0_C_16
  rw [View.read_writes_eq_canon _ _ _ (cover0_C_16 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_C
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_i, Tile.step_f, Tile.step_c]

/-- The new hidden state's tile, written at the last point of a run. -/
theorem last_hidden (hc0 : ¬cond0_0 i) (hc1 : cond0_1 i) :
    out0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3 = k0_pay4 (Tile.step xs0 x0 x2 x1 x3) x4 (Tile.step xs1 x0 x5 x1 x6) x7 (Tile.step xs2 x0 x8 x1 x9) x10 x14 (Tile.step xs3 x0 x11 x1 x12) x13 := by
  unfold out0_C_15
  rw [View.read_writes_eq_canon _ _ _ (cover0_C_15 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 x12 x13 x14 xs0 xs1 xs2 xs3)]
  unfold kernelRun0_C
  dsimp only
  sl_unfold_words
  rw [View.canon_cons_unit_zero (S := S1024x512) hz]
  simp only [View.readCov_cons_toLoadRect, View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread,
    View.ld_unit_zero (S := S1024x256) hz, View.ld_unit_zero (S := S256x512) hz, View.ld_unit_zero (S := S1x512) hz,
    View.ld_unit_zero (S := S1024x512) hz]
  rw [Tile.step_i, Tile.step_f, Tile.step_c, Tile.step_o]

end Cert.KernelIdeal.Pieces

end
-- ==== Proof.LibBlockAcc.lean ====
import Mathlib.Algebra.BigOperators.Fin
import Mathlib.Algebra.BigOperators.Intervals

/-!
# A long sum taken in consecutive blocks

A contraction over `n * K` terms may be accumulated block by block: start from zero and, for `k = 0, 1, …`,
add the sum of the `n` consecutive terms `n * k, …, n * k + n - 1`. After `k` blocks the accumulator holds the sum of
the first `n * k` terms, and after all `K` of them the whole sum. Only commutativity and associativity of `+` are
used, so nothing here asks the terms to be finite: the lemmas hold on the extended reals as they stand.
-/

namespace BlockAcc

open Finset

/-- The sum of the first `n * k` terms of a sequence: what the accumulator holds after `k` blocks of length `n`. -/
def partialSum {M : Type*} [AddCommMonoid M] (n : ℕ) (f : ℕ → M) (k : ℕ) : M := ∑ d ∈ range (n * k), f d

/-- Before any block the accumulator is zero. -/
theorem partialSum_zero {M : Type*} [AddCommMonoid M] (n : ℕ) (f : ℕ → M) : partialSum n f 0 = 0 := by
  simp [partialSum]

/-- One more block: the accumulator gains the sum of the next `n` consecutive terms. -/
theorem partialSum_succ {M : Type*} [AddCommMonoid M] (n : ℕ) (f : ℕ → M) (k : ℕ) :
    partialSum n f (k + 1) = partialSum n f k + ∑ s : Fin n, f (n * k + s.val) := by
  unfold partialSum
  rw [Nat.mul_succ, Finset.sum_range_add, Fin.sum_univ_eq_sum_range (fun s => f (n * k + s)) n]

/-- After all `K` blocks the accumulator holds the whole sum over `Fin N`, when `N = n * K`. -/
theorem partialSum_all {M : Type*} [AddCommMonoid M] (n K N : ℕ) (h : N = n * K) (f : ℕ → M) :
    partialSum n f K = ∑ d : Fin N, f d.val := by
  subst h
  unfold partialSum
  rw [Fin.sum_univ_eq_sum_range f (n * K)]

end BlockAcc
-- ==== Proof.Spec.lean ====
import Idealize.ShloMosaic.PureOps.Ideal
import Idealize.ShloMosaic.Lib.ValueIdx
import proofs.«177769_j16183436772221_2_alg».proof.Proof.LibBlockAcc

/-!
# The LSTM cell, entry by entry, on the extended reals

One step of an LSTM cell on a batch of 4096 rows with 2048 inputs and 2048 hidden units. For a batch row `p`
and a hidden unit `q` each of the four gates has the pre-activation

  `pre p q = (∑_d x[p,d] · Wx[d,q] + ∑_d h[p,d] · Wh[d,q]) + b[q]`,

and with `σ z = 1 / (1 + e^(-z))`

  `c'[p,q] = σ(pre_f) · c[p,q] + σ(pre_i) · tanh(pre_c)`,   `h'[p,q] = σ(pre_o) · tanh(c'[p,q])`.

The contraction over `d` has 2048 terms. Taken in 8 consecutive blocks of 256, both products of a gate added
onto one running value, the running value after all 8 blocks is the sum of the two whole contractions
(`accAfter_all`): only commutativity and associativity of `+` are used, which hold on all of the extended reals, so
no entry is asked to be finite.
-/

noncomputable section

namespace Lstm

open Idealize.ShloMosaic Idealize.ShloMosaic.ValueIdx

/-- The shape of `x`, `h`, `c` and of both results: batch by features. -/
abbrev Act : Shape := ⟨2, ![4096, 2048]⟩
/-- The shape of a weight matrix: contracted axis by hidden unit. -/
abbrev Wt : Shape := ⟨2, ![2048, 2048]⟩
/-- The shape of a bias vector. -/
abbrev Bias : Shape := ⟨1, ![2048]⟩

/-- The fifteen argument arrays of the cell. -/
structure Inputs where
  x : Act.Idx → EReal
  h : Act.Idx → EReal
  c : Act.Idx → EReal
  wxi : Wt.Idx → EReal
  whi : Wt.Idx → EReal
  bi : Bias.Idx → EReal
  wxf : Wt.Idx → EReal
  whf : Wt.Idx → EReal
  bf : Bias.Idx → EReal
  wxc : Wt.Idx → EReal
  whc : Wt.Idx → EReal
  bc : Bias.Idx → EReal
  wxo : Wt.Idx → EReal
  who : Wt.Idx → EReal
  bo : Bias.Idx → EReal

/-- The `d`-th product of row `p` of `A` with column `q` of `W`, as a sequence in `d` (zero past the 2048 terms). -/
def term (A : Act.Idx → EReal) (W : Wt.Idx → EReal) (p : Fin 4096) (q : Fin 2048) (d : ℕ) : EReal :=
  if hd : d < 2048 then A (ix2 p ⟨d, hd⟩) * W (ix2 ⟨d, hd⟩ q) else 0

theorem term_lt (A : Act.Idx → EReal) (W : Wt.Idx → EReal) (p : Fin 4096) (q : Fin 2048) (d : ℕ) (hd : d < 2048) :
    term A W p q d = A (ix2 p ⟨d, hd⟩) * W (ix2 ⟨d, hd⟩ q) := dif_pos hd

/-- Entry `(p, q)` of the matrix product `A · W`. -/
def dot (A : Act.Idx → EReal) (W : Wt.Idx → EReal) (p : Fin 4096) (q : Fin 2048) : EReal :=
  ∑ d : Fin 2048, term A W p q d.val

/-- A gate's pre-activation: the two products, then the bias. -/
def pre (X H : Act.Idx → EReal) (Wx Wh : Wt.Idx → EReal) (b : Bias.Idx → EReal) (p : Fin 4096) (q : Fin 2048) : EReal :=
  (dot X Wx p q + dot H Wh p q) + b (ix1 q)

/-- The new cell state at `(p, q)`. -/
def cell (I : Inputs) (p : Fin 4096) (q : Fin 2048) : EReal :=
  Ideal.logistic (pre I.x I.h I.wxf I.whf I.bf p q) * I.c (ix2 p q)
    + Ideal.logistic (pre I.x I.h I.wxi I.whi I.bi p q) * Ideal.tanh (pre I.x I.h I.wxc I.whc I.bc p q)

/-- The new hidden state at `(p, q)`. -/
def hidden (I : Inputs) (p : Fin 4096) (q : Fin 2048) : EReal :=
  Ideal.logistic (pre I.x I.h I.wxo I.who I.bo p q) * Ideal.tanh (cell I p q)

/-- The new cell state as an array. -/
def cellArr (I : Inputs) : Act.Idx → EReal := fun i => cell I (i 0) (i 1)
/-- The new hidden state as an array. -/
def hiddenArr (I : Inputs) : Act.Idx → EReal := fun i => hidden I (i 0) (i 1)

/-! ## The contraction taken in 8 blocks of 256 -/

/-- What a gate's running value holds after `k` blocks: the first `256 k` terms of both contractions. -/
def accAfter (X H : Act.Idx → EReal) (Wx Wh : Wt.Idx → EReal) (p : Fin 4096) (q : Fin 2048) (k : ℕ) : EReal :=
  BlockAcc.partialSum 256 (term X Wx p q) k + BlockAcc.partialSum 256 (term H Wh p q) k

theorem accAfter_zero (X H : Act.Idx → EReal) (Wx Wh : Wt.Idx → EReal) (p : Fin 4096) (q : Fin 2048) :
    accAfter X H Wx Wh p q 0 = 0 := by
  unfold accAfter
  rw [BlockAcc.partialSum_zero, BlockAcc.partialSum_zero, add_zero]

/-- One more block: first the block's part of `x · Wx` is added, then its part of `h · Wh`. -/
theorem accAfter_succ (X H : Act.Idx → EReal) (Wx Wh : Wt.Idx → EReal) (p : Fin 4096) (q : Fin 2048) (k : ℕ) :
    accAfter X H Wx Wh p q (k + 1)
      = (accAfter X H Wx Wh p q k + ∑ s : Fin 256, term X Wx p q (256 * k + s.val))
          + ∑ s : Fin 256, term H Wh p q (256 * k + s.val) := by
  unfold accAfter
  rw [BlockAcc.partialSum_succ, BlockAcc.partialSum_succ]
  abel

/-- After the 8 blocks the running value is the sum of the two whole products. -/
theorem accAfter_all (X H : Act.Idx → EReal) (Wx Wh : Wt.Idx → EReal) (p : Fin 4096) (q : Fin 2048) :
    accAfter X H Wx Wh p q 8 = dot X Wx p q + dot H Wh p q := by
  unfold accAfter dot
  rw [BlockAcc.partialSum_all 256 8 2048 (by norm_num), BlockAcc.partialSum_all 256 8 2048 (by norm_num)]

end Lstm

end
-- ==== Proof.Blocks.lean ====
import proofs.«177769_j16183436772221_2_alg».proof.Proof.Gen.KernelIdeal.Frame
import proofs.«177769_j16183436772221_2_alg».proof.Proof.Spec
import Idealize.ShloMosaic.Lib.Pipeline.Value
import Idealize.ShloMosaic.Lib.ValueIdx
import Idealize.ShloMosaic.Lib.StableHlo.Run

/-!
# The blocks a grid point sees, as entries of the argument arrays

The grid has 4 × 4 × 8 points; point `t` (counted row-major) has row block `t / 32`, column block `(t / 8) % 4` and
contraction block `t % 8`. At point `t` the kernel sees rows `1024 (t / 32) …` and columns `256 (t % 8) …` of `x` and of
`h`, rows `256 (t % 8) …` and columns `512 ((t / 8) % 4) …` of each weight matrix, columns `512 ((t / 8) % 4) …` of each
bias, and rows `1024 (t / 32) …`, columns `512 ((t / 8) % 4) …` of `c`. Before the kernel runs the host changes the float
format of `x`, `h` and the weights (the identity on the extended reals) and lays each bias out as one row.
-/

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-- The cell's fifteen inputs as the kernel's memory holds them on device `c`. -/
def inputs (c : Dev nD) : Lstm.Inputs :=
  ⟨m ((c : Thread nD τ).loc main_arg0), m ((c : Thread nD τ).loc main_arg1), m ((c : Thread nD τ).loc main_arg2),
   m ((c : Thread nD τ).loc main_arg3), m ((c : Thread nD τ).loc main_arg4), m ((c : Thread nD τ).loc main_arg5),
   m ((c : Thread nD τ).loc main_arg6), m ((c : Thread nD τ).loc main_arg7), m ((c : Thread nD τ).loc main_arg8),
   m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14)⟩

/-! ## What the region finds in the arrays the host wrote -/

/-- The array staged for window 0 is argument 0 with its float format changed: the same extended reals. -/
theorem V_x (c : Dev nD) : (V m c main_v0 : S4096x2048.Idx → EReal) = m ((c : Thread nD τ).loc main_arg0) := by
  dsimp only [Gen.V, Gen.hostOps0]
  after_results
  rfl

/-- The array staged for window 1 is argument 1 with its float format changed: the same extended reals. -/
theorem V_h (c : Dev nD) : (V m c main_v1 : S4096x2048.Idx → EReal) = m ((c : Thread nD τ).loc main_arg1) := by
  dsimp only [Gen.V, Gen.hostOps0]
  after_results
  rfl

/-- The array staged for window 2 is argument 3 with its float format changed: the same extended reals. -/
theorem V_wxi (c : Dev nD) : (V m c main_v2 : S2048x2048.Idx → EReal) = m ((c : Thread nD τ).loc main_arg3) := by
  dsimp only [Gen.V, Gen.hostOps0]
  after_results
  rfl

/-- The array staged for window 3 is argument 4 with its float format changed: the same extended reals. -/
theorem V_whi (c : Dev nD) : (V m c main_v3 : S2048x2048.Idx → EReal) = m ((c : Thread nD τ).loc main_arg4) := by
  dsimp only [Gen.V, Gen.hostOps0]
  after_results
  rfl

/-- The array staged for window 4 is argument 5 laid out as one row. -/
theorem V_bi (c : Dev nD) : (V m c main_v10 : S1x2048.Idx → EReal)
    = shapeCast S1x2048 (m ((c : Thread nD τ).loc main_arg5)) shapeCasts_S2048_S1x2048 := by
  dsimp only [Gen.V, Gen.hostOps0]
  after_results
  rfl

/-- The array staged for window 5 is argument 6 with its float format changed: the same extended reals. -/
theorem V_wxf (c : Dev nD) : (V m c main_v4 : S2048x2048.Idx → EReal) = m ((c : Thread nD τ).loc main_arg6) := by
  dsimp only [Gen.V, Gen.hostOps0]
  after_results
  rfl

/-- The array staged for window 6 is argument 7 with its float format changed: the same extended reals. -/
theorem V_whf (c : Dev nD) : (V m c main_v5 : S2048x2048.Idx → EReal) = m ((c : Thread nD τ).loc main_arg7) := by
  dsimp only [Gen.V, Gen.hostOps0]
  after_results
  rfl

/-- The array staged for window 7 is argument 8 laid out as one row. -/
theorem V_bf (c : Dev nD) : (V m c main_v11 : S1x2048.Idx → EReal)
    = shapeCast S1x2048 (m ((c : Thread nD τ).loc main_arg8)) shapeCasts_S2048_S1x2048 := by
  dsimp only [Gen.V, Gen.hostOps0]
  after_results
  rfl

/-- The array staged for window 8 is argument 9 with its float format changed: the same extended reals. -/
theorem V_wxc (c : Dev nD) : (V m c main_v6 : S2048x2048.Idx → EReal) = m ((c : Thread nD τ).loc main_arg9) := by
  dsimp only [Gen.V, Gen.hostOps0]
  after_results
  rfl

/-- The array staged for window 9 is argument 10 with its float format changed: the same extended reals. -/
theorem V_whc (c : Dev nD) : (V m c main_v7 : S2048x2048.Idx → EReal) = m ((c : Thread nD τ).loc main_arg10) := by
  dsimp only [Gen.V, Gen.hostOps0]
  after_results
  rfl

/-- The array staged for window 10 is argument 11 laid out as one row. -/
theorem V_bc (c : Dev nD) : (V m c main_v12 : S1x2048.Idx → EReal)
    = shapeCast S1x2048 (m ((c : Thread nD τ).loc main_arg11)) shapeCasts_S2048_S1x2048 := by
  dsimp only [Gen.V, Gen.hostOps0]
  after_results
  rfl

/-- The array staged for window 11 is argument 12 with its float format changed: the same extended reals. -/
theorem V_wxo (c : Dev nD) : (V m c main_v8 : S2048x2048.Idx → EReal) = m ((c : Thread nD τ).loc main_arg12) := by
  dsimp only [Gen.V, Gen.hostOps0]
  after_results
  rfl

/-- The array staged for window 12 is argument 13 with its float format changed: the same extended reals. -/
theorem V_who (c : Dev nD) : (V m c main_v9 : S2048x2048.Idx → EReal) = m ((c : Thread nD τ).loc main_arg13) := by
  dsimp only [Gen.V, Gen.hostOps0]
  after_results
  rfl

/-- The array staged for window 13 is argument 14 laid out as one row. -/
theorem V_bo (c : Dev nD) : (V m c main_v13 : S1x2048.Idx → EReal)
    = shapeCast S1x2048 (m ((c : Thread nD τ).loc main_arg14)) shapeCasts_S2048_S1x2048 := by
  dsimp only [Gen.V, Gen.hostOps0]
  after_results
  rfl

/-- A bias laid out as one row, read at `(0, q)`: the bias at `q`. -/
theorem row_apply (b : S2048.Idx → EReal) (z : Fin 1) (q : Fin 2048) :
    shapeCast S1x2048 b shapeCasts_S2048_S1x2048 (ix2 z q) = b (ix1 q) := by
  refine shapeCast_apply b _ _ _ ?_
  rw [Shape.rowMajor_val_one, Shape.rowMajor_val_two]
  have hz : z.val = 0 := by omega
  show q.val = z.val * 2048 + q.val
  omega

/-! ## The index maps, decided once over the 128 points -/

theorem index0 : ∀ t : Fin cfg0.N, win0_0.index t (0 : Fin 2) = t.val / 32 ∧ win0_0.index t (1 : Fin 2) = t.val % 8 :=
  (by decide +kernel : ∀ t : Fin grid0.N, _)
theorem index1 : ∀ t : Fin cfg0.N, win0_1.index t (0 : Fin 2) = t.val / 32 ∧ win0_1.index t (1 : Fin 2) = t.val % 8 :=
  (by decide +kernel : ∀ t : Fin grid0.N, _)
theorem index2 : ∀ t : Fin cfg0.N, win0_2.index t (0 : Fin 2) = t.val % 8 ∧ win0_2.index t (1 : Fin 2) = t.val / 8 % 4 :=
  (by decide +kernel : ∀ t : Fin grid0.N, _)
theorem index3 : ∀ t : Fin cfg0.N, win0_3.index t (0 : Fin 2) = t.val % 8 ∧ win0_3.index t (1 : Fin 2) = t.val / 8 % 4 :=
  (by decide +kernel : ∀ t : Fin grid0.N, _)
theorem index4 : ∀ t : Fin cfg0.N, win0_4.index t (0 : Fin 2) = 0 ∧ win0_4.index t (1 : Fin 2) = t.val / 8 % 4 :=
  (by decide +kernel : ∀ t : Fin grid0.N, _)
theorem index5 : ∀ t : Fin cfg0.N, win0_5.index t (0 : Fin 2) = t.val % 8 ∧ win0_5.index t (1 : Fin 2) = t.val / 8 % 4 :=
  (by decide +kernel : ∀ t : Fin grid0.N, _)
theorem index6 : ∀ t : Fin cfg0.N, win0_6.index t (0 : Fin 2) = t.val % 8 ∧ win0_6.index t (1 : Fin 2) = t.val / 8 % 4 :=
  (by decide +kernel : ∀ t : Fin grid0.N, _)
theorem index7 : ∀ t : Fin cfg0.N, win0_7.index t (0 : Fin 2) = 0 ∧ win0_7.index t (1 : Fin 2) = t.val / 8 % 4 :=
  (by decide +kernel : ∀ t : Fin grid0.N, _)
theorem index8 : ∀ t : Fin cfg0.N, win0_8.index t (0 : Fin 2) = t.val % 8 ∧ win0_8.index t (1 : Fin 2) = t.val / 8 % 4 :=
  (by decide +kernel : ∀ t : Fin grid0.N, _)
theorem index9 : ∀ t : Fin cfg0.N, win0_9.index t (0 : Fin 2) = t.val % 8 ∧ win0_9.index t (1 : Fin 2) = t.val / 8 % 4 :=
  (by decide +kernel : ∀ t : Fin grid0.N, _)
theorem index10 : ∀ t : Fin cfg0.N, win0_10.index t (0 : Fin 2) = 0 ∧ win0_10.index t (1 : Fin 2) = t.val / 8 % 4 :=
  (by decide +kernel : ∀ t : Fin grid0.N, _)
theorem index11 : ∀ t : Fin cfg0.N, win0_11.index t (0 : Fin 2) = t.val % 8 ∧ win0_11.index t (1 : Fin 2) = t.val / 8 % 4 :=
  (by decide +kernel : ∀ t : Fin grid0.N, _)
theorem index12 : ∀ t : Fin cfg0.N, win0_12.index t (0 : Fin 2) = t.val % 8 ∧ win0_12.index t (1 : Fin 2) = t.val / 8 % 4 :=
  (by decide +kernel : ∀ t : Fin grid0.N, _)
theorem index13 : ∀ t : Fin cfg0.N, win0_13.index t (0 : Fin 2) = 0 ∧ win0_13.index t (1 : Fin 2) = t.val / 8 % 4 :=
  (by decide +kernel : ∀ t : Fin grid0.N, _)
theorem index14 : ∀ t : Fin cfg0.N, win0_14.index t (0 : Fin 2) = t.val / 32 ∧ win0_14.index t (1 : Fin 2) = t.val / 8 % 4 :=
  (by decide +kernel : ∀ t : Fin grid0.N, _)
theorem index15 : ∀ t : Fin cfg0.N, win0_15.index t (0 : Fin 2) = t.val / 32 ∧ win0_15.index t (1 : Fin 2) = t.val / 8 % 4 :=
  (by decide +kernel : ∀ t : Fin grid0.N, _)
theorem index16 : ∀ t : Fin cfg0.N, win0_16.index t (0 : Fin 2) = t.val / 32 ∧ win0_16.index t (1 : Fin 2) = t.val / 8 % 4 :=
  (by decide +kernel : ∀ t : Fin grid0.N, _)

/-! ## The blocks read at an entry -/

/-- Window 0's block at point `t`, entry `(r, k)`: entry `(1024 (t / 32) + r, 256 (t % 8) + k)` of argument 0. -/
theorem blk_x (c : Dev nD) (t : Fin cfg0.N) (r : Fin 1024) (k : Fin 256) (p : Fin 4096) (d : Fin 2048)
    (hp : p.val = 1024 * (t.val / 32) + r.val) (hd : d.val = 256 * (t.val % 8) + k.val) :
    (iblk m c 0 t : S1024x256.Idx → EReal) (ix2 r k) = m ((c : Thread nD τ).loc main_arg0) (ix2 p d) := by
  unfold iblk
  rw [View.read_apply]
  show V m c main_v0 _ = _
  rw [V_x]
  refine congrArg _ (funext fun a => Fin.ext ?_)
  match a with
  | ⟨0, _⟩ => show win0_0.index t 0 * 1024 + 1 * r.val = p.val; rw [(index0 t).1]; omega
  | ⟨1, _⟩ => show win0_0.index t 1 * 256 + 1 * k.val = d.val; rw [(index0 t).2]; omega

/-- Window 1's block at point `t`, entry `(r, k)`: entry `(1024 (t / 32) + r, 256 (t % 8) + k)` of argument 1. -/
theorem blk_h (c : Dev nD) (t : Fin cfg0.N) (r : Fin 1024) (k : Fin 256) (p : Fin 4096) (d : Fin 2048)
    (hp : p.val = 1024 * (t.val / 32) + r.val) (hd : d.val = 256 * (t.val % 8) + k.val) :
    (iblk m c 1 t : S1024x256.Idx → EReal) (ix2 r k) = m ((c : Thread nD τ).loc main_arg1) (ix2 p d) := by
  unfold iblk
  rw [View.read_apply]
  show V m c main_v1 _ = _
  rw [V_h]
  refine congrArg _ (funext fun a => Fin.ext ?_)
  match a with
  | ⟨0, _⟩ => show win0_1.index t 0 * 1024 + 1 * r.val = p.val; rw [(index1 t).1]; omega
  | ⟨1, _⟩ => show win0_1.index t 1 * 256 + 1 * k.val = d.val; rw [(index1 t).2]; omega

/-- Window 2's block at point `t`, entry `(k, s)`: entry `(256 (t % 8) + k, 512 ((t / 8) % 4) + s)` of argument 3. -/
theorem blk_wxi (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 2 t : S256x512.Idx → EReal) (ix2 k s) = m ((c : Thread nD τ).loc main_arg3) (ix2 d q) := by
  unfold iblk
  rw [View.read_apply]
  show V m c main_v2 _ = _
  rw [V_wxi]
  refine congrArg _ (funext fun a => Fin.ext ?_)
  match a with
  | ⟨0, _⟩ => show win0_2.index t 0 * 256 + 1 * k.val = d.val; rw [(index2 t).1]; omega
  | ⟨1, _⟩ => show win0_2.index t 1 * 512 + 1 * s.val = q.val; rw [(index2 t).2]; omega

/-- Window 3's block at point `t`, entry `(k, s)`: entry `(256 (t % 8) + k, 512 ((t / 8) % 4) + s)` of argument 4. -/
theorem blk_whi (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 3 t : S256x512.Idx → EReal) (ix2 k s) = m ((c : Thread nD τ).loc main_arg4) (ix2 d q) := by
  unfold iblk
  rw [View.read_apply]
  show V m c main_v3 _ = _
  rw [V_whi]
  refine congrArg _ (funext fun a => Fin.ext ?_)
  match a with
  | ⟨0, _⟩ => show win0_3.index t 0 * 256 + 1 * k.val = d.val; rw [(index3 t).1]; omega
  | ⟨1, _⟩ => show win0_3.index t 1 * 512 + 1 * s.val = q.val; rw [(index3 t).2]; omega

/-- Window 4's block at point `t`, entry `(0, s)`: entry `512 ((t / 8) % 4) + s` of argument 5. -/
theorem blk_bi (c : Dev nD) (t : Fin cfg0.N) (s : Fin 512) (q : Fin 2048) (hq : q.val = 512 * (t.val / 8 % 4) + s.val) :
    (iblk m c 4 t : S1x512.Idx → EReal) (ix2 (0 : Fin 1) s) = m ((c : Thread nD τ).loc main_arg5) (ix1 q) := by
  unfold iblk
  rw [View.read_apply]
  show V m c main_v10 _ = _
  rw [V_bi, ← row_apply (m ((c : Thread nD τ).loc main_arg5)) (0 : Fin 1) q]
  refine congrArg _ (funext fun a => Fin.ext ?_)
  match a with
  | ⟨0, _⟩ => show win0_4.index t 0 * 1 + 1 * 0 = 0; rw [(index4 t).1]
  | ⟨1, _⟩ => show win0_4.index t 1 * 512 + 1 * s.val = q.val; rw [(index4 t).2]; omega

/-- Window 5's block at point `t`, entry `(k, s)`: entry `(256 (t % 8) + k, 512 ((t / 8) % 4) + s)` of argument 6. -/
theorem blk_wxf (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 5 t : S256x512.Idx → EReal) (ix2 k s) = m ((c : Thread nD τ).loc main_arg6) (ix2 d q) := by
  unfold iblk
  rw [View.read_apply]
  show V m c main_v4 _ = _
  rw [V_wxf]
  refine congrArg _ (funext fun a => Fin.ext ?_)
  match a with
  | ⟨0, _⟩ => show win0_5.index t 0 * 256 + 1 * k.val = d.val; rw [(index5 t).1]; omega
  | ⟨1, _⟩ => show win0_5.index t 1 * 512 + 1 * s.val = q.val; rw [(index5 t).2]; omega

/-- Window 6's block at point `t`, entry `(k, s)`: entry `(256 (t % 8) + k, 512 ((t / 8) % 4) + s)` of argument 7. -/
theorem blk_whf (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 6 t : S256x512.Idx → EReal) (ix2 k s) = m ((c : Thread nD τ).loc main_arg7) (ix2 d q) := by
  unfold iblk
  rw [View.read_apply]
  show V m c main_v5 _ = _
  rw [V_whf]
  refine congrArg _ (funext fun a => Fin.ext ?_)
  match a with
  | ⟨0, _⟩ => show win0_6.index t 0 * 256 + 1 * k.val = d.val; rw [(index6 t).1]; omega
  | ⟨1, _⟩ => show win0_6.index t 1 * 512 + 1 * s.val = q.val; rw [(index6 t).2]; omega

/-- Window 7's block at point `t`, entry `(0, s)`: entry `512 ((t / 8) % 4) + s` of argument 8. -/
theorem blk_bf (c : Dev nD) (t : Fin cfg0.N) (s : Fin 512) (q : Fin 2048) (hq : q.val = 512 * (t.val / 8 % 4) + s.val) :
    (iblk m c 7 t : S1x512.Idx → EReal) (ix2 (0 : Fin 1) s) = m ((c : Thread nD τ).loc main_arg8) (ix1 q) := by
  unfold iblk
  rw [View.read_apply]
  show V m c main_v11 _ = _
  rw [V_bf, ← row_apply (m ((c : Thread nD τ).loc main_arg8)) (0 : Fin 1) q]
  refine congrArg _ (funext fun a => Fin.ext ?_)
  match a with
  | ⟨0, _⟩ => show win0_7.index t 0 * 1 + 1 * 0 = 0; rw [(index7 t).1]
  | ⟨1, _⟩ => show win0_7.index t 1 * 512 + 1 * s.val = q.val; rw [(index7 t).2]; omega

/-- Window 8's block at point `t`, entry `(k, s)`: entry `(256 (t % 8) + k, 512 ((t / 8) % 4) + s)` of argument 9. -/
theorem blk_wxc (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 8 t : S256x512.Idx → EReal) (ix2 k s) = m ((c : Thread nD τ).loc main_arg9) (ix2 d q) := by
  unfold iblk
  rw [View.read_apply]
  show V m c main_v6 _ = _
  rw [V_wxc]
  refine congrArg _ (funext fun a => Fin.ext ?_)
  match a with
  | ⟨0, _⟩ => show win0_8.index t 0 * 256 + 1 * k.val = d.val; rw [(index8 t).1]; omega
  | ⟨1, _⟩ => show win0_8.index t 1 * 512 + 1 * s.val = q.val; rw [(index8 t).2]; omega

/-- Window 9's block at point `t`, entry `(k, s)`: entry `(256 (t % 8) + k, 512 ((t / 8) % 4) + s)` of argument 10. -/
theorem blk_whc (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 9 t : S256x512.Idx → EReal) (ix2 k s) = m ((c : Thread nD τ).loc main_arg10) (ix2 d q) := by
  unfold iblk
  rw [View.read_apply]
  show V m c main_v7 _ = _
  rw [V_whc]
  refine congrArg _ (funext fun a => Fin.ext ?_)
  match a with
  | ⟨0, _⟩ => show win0_9.index t 0 * 256 + 1 * k.val = d.val; rw [(index9 t).1]; omega
  | ⟨1, _⟩ => show win0_9.index t 1 * 512 + 1 * s.val = q.val; rw [(index9 t).2]; omega

/-- Window 10's block at point `t`, entry `(0, s)`: entry `512 ((t / 8) % 4) + s` of argument 11. -/
theorem blk_bc (c : Dev nD) (t : Fin cfg0.N) (s : Fin 512) (q : Fin 2048) (hq : q.val = 512 * (t.val / 8 % 4) + s.val) :
    (iblk m c 10 t : S1x512.Idx → EReal) (ix2 (0 : Fin 1) s) = m ((c : Thread nD τ).loc main_arg11) (ix1 q) := by
  unfold iblk
  rw [View.read_apply]
  show V m c main_v12 _ = _
  rw [V_bc, ← row_apply (m ((c : Thread nD τ).loc main_arg11)) (0 : Fin 1) q]
  refine congrArg _ (funext fun a => Fin.ext ?_)
  match a with
  | ⟨0, _⟩ => show win0_10.index t 0 * 1 + 1 * 0 = 0; rw [(index10 t).1]
  | ⟨1, _⟩ => show win0_10.index t 1 * 512 + 1 * s.val = q.val; rw [(index10 t).2]; omega

/-- Window 11's block at point `t`, entry `(k, s)`: entry `(256 (t % 8) + k, 512 ((t / 8) % 4) + s)` of argument 12. -/
theorem blk_wxo (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 11 t : S256x512.Idx → EReal) (ix2 k s) = m ((c : Thread nD τ).loc main_arg12) (ix2 d q) := by
  unfold iblk
  rw [View.read_apply]
  show V m c main_v8 _ = _
  rw [V_wxo]
  refine congrArg _ (funext fun a => Fin.ext ?_)
  match a with
  | ⟨0, _⟩ => show win0_11.index t 0 * 256 + 1 * k.val = d.val; rw [(index11 t).1]; omega
  | ⟨1, _⟩ => show win0_11.index t 1 * 512 + 1 * s.val = q.val; rw [(index11 t).2]; omega

/-- Window 12's block at point `t`, entry `(k, s)`: entry `(256 (t % 8) + k, 512 ((t / 8) % 4) + s)` of argument 13. -/
theorem blk_who (c : Dev nD) (t : Fin cfg0.N) (k : Fin 256) (s : Fin 512) (d : Fin 2048) (q : Fin 2048)
    (hd : d.val = 256 * (t.val % 8) + k.val) (hq : q.val = 512 * (t.val / 8 % 4) + s.val) :
    (iblk m c 12 t : S256x512.Idx → EReal) (ix2 k s) = m ((c : Thread nD τ).loc main_arg13) (ix2 d q) := by
  unfold iblk
  rw [View.read_apply]
  show V m c main_v9 _ = _
  rw [V_who]
  refine congrArg _ (funext fun a => Fin.ext ?_)
  match a with
  | ⟨0, _⟩ => show win0_12.index t 0 * 256 + 1 * k.val = d.val; rw [(index12 t).1]; omega
  | ⟨1, _⟩ => show win0_12.index t 1 * 512 + 1 * s.val = q.val; rw [(index12 t).2]; omega

/-- Window 13's block at point `t`, entry `(0, s)`: entry `512 ((t / 8) % 4) + s` of argument 14. -/
theorem blk_bo (c : Dev nD) (t : Fin cfg0.N) (s : Fin 512) (q : Fin 2048) (hq : q.val = 512 * (t.val / 8 % 4) + s.val) :
    (iblk m c 13 t : S1x512.Idx → EReal) (ix2 (0 : Fin 1) s) = m ((c : Thread nD τ).loc main_arg14) (ix1 q) := by
  unfold iblk
  rw [View.read_apply]
  show V m c main_v13 _ = _
  rw [V_bo, ← row_apply (m ((c : Thread nD τ).loc main_arg14)) (0 : Fin 1) q]
  refine congrArg _ (funext fun a => Fin.ext ?_)
  match a with
  | ⟨0, _⟩ => show win0_13.index t 0 * 1 + 1 * 0 = 0; rw [(index13 t).1]
  | ⟨1, _⟩ => show win0_13.index t 1 * 512 + 1 * s.val = q.val; rw [(index13 t).2]; omega

/-- Window 14's block at point `t`, entry `(r, s)`: entry `(1024 (t / 32) + r, 512 ((t / 8) % 4) + s)` of argument 2. -/
theorem blk_c (c : Dev nD) (t : Fin cfg0.N) (r : Fin 1024) (s : Fin 512) (p : Fin 4096) (q : Fin 2048)
    (hp : p.val = 1024 * (t.val / 32) + r.val) (hq : q.val = 512 * (t.val / 8 % 4) + s.val) :
    (iblk m c 14 t : S1024x512.Idx → EReal) (ix2 r s) = m ((c : Thread nD τ).loc main_arg2) (ix2 p q) := by
  unfold iblk
  rw [View.read_apply]
  show V m c main_arg2 _ = _
  rw [V_main_arg2]
  refine congrArg _ (funext fun a => Fin.ext ?_)
  match a with
  | ⟨0, _⟩ => show win0_14.index t 0 * 1024 + 1 * r.val = p.val; rw [(index14 t).1]; omega
  | ⟨1, _⟩ => show win0_14.index t 1 * 512 + 1 * s.val = q.val; rw [(index14 t).2]; omega

end Cert.KernelIdeal.Blocks

end
-- ==== Proof.Fold.lean ====
import proofs.«177769_j16183436772221_2_alg».proof.Proof.Tile
import proofs.«177769_j16183436772221_2_alg».proof.Proof.Spec

/-!
# A gate's running tile after any grid point

Along the grid the points come in runs of 8 (the contraction blocks `k = 0 … 7` of one output tile). A running
tile `f` that is `Tile.step` from `Tile.zero` at the first point of a run and `Tile.step` from the point before at
the other points holds, after point `n`, at entry `(r, s)`, the first `256 (n % 8 + 1)` terms of both contractions
for the array entry `(p, q)` the tile entry stands for: `Lstm.accAfter … p q (n % 8 + 1)` — given that the blocks
the points see are the corresponding entries of the arrays. By induction on the point.
-/

noncomputable section

namespace Cert.KernelIdeal.Fold

open Cert.KernelIdeal Cert.KernelIdeal.Gen Idealize.ShloMosaic Idealize.ShloMosaic.ValueIdx

/-- The running tile after point `n`, entry by entry. -/
theorem entry (N : ℕ) (A H : Lstm.Act.Idx → EReal) (Wx Wh : Lstm.Wt.Idx → EReal)
    (xb hb : (n : ℕ) → n < N → S1024x256.Idx → EReal) (wxb whb : (n : ℕ) → n < N → S256x512.Idx → EReal)
    (hx : ∀ (n : ℕ) (hn : n < N) (r : Fin 1024) (k : Fin 256) (p : Fin 4096) (d : Fin 2048),
      p.val = 1024 * (n / 32) + r.val → d.val = 256 * (n % 8) + k.val → xb n hn (ix2 r k) = A (ix2 p d))
    (hh : ∀ (n : ℕ) (hn : n < N) (r : Fin 1024) (k : Fin 256) (p : Fin 4096) (d : Fin 2048),
      p.val = 1024 * (n / 32) + r.val → d.val = 256 * (n % 8) + k.val → hb n hn (ix2 r k) = H (ix2 p d))
    (hwx : ∀ (n : ℕ) (hn : n < N) (k : Fin 256) (s : Fin 512) (d : Fin 2048) (q : Fin 2048),
      d.val = 256 * (n % 8) + k.val → q.val = 512 * (n / 8 % 4) + s.val → wxb n hn (ix2 k s) = Wx (ix2 d q))
    (hwh : ∀ (n : ℕ) (hn : n < N) (k : Fin 256) (s : Fin 512) (d : Fin 2048) (q : Fin 2048),
      d.val = 256 * (n % 8) + k.val → q.val = 512 * (n / 8 % 4) + s.val → whb n hn (ix2 k s) = Wh (ix2 d q))
    (f : (n : ℕ) → n < N → Vec Ideal S1024x512 .f32)
    (h0 : ∀ (n : ℕ) (hn : n < N), n % 8 = 0 →
      f n hn = Tile.step Tile.zero (xb n hn) (wxb n hn) (hb n hn) (whb n hn))
    (hs : ∀ (n : ℕ) (hn : n + 1 < N), ¬(n + 1) % 8 = 0 →
      f (n + 1) hn = Tile.step (f n (Nat.lt_of_succ_lt hn)) (xb (n + 1) hn) (wxb (n + 1) hn) (hb (n + 1) hn) (whb (n + 1) hn)) :
    ∀ (n : ℕ) (hn : n < N) (r : Fin 1024) (s : Fin 512) (p : Fin 4096) (q : Fin 2048),
      p.val = 1024 * (n / 32) + r.val → q.val = 512 * (n / 8 % 4) + s.val →
      f n hn (ix2 r s) = Lstm.accAfter A H Wx Wh p q (n % 8 + 1) := by
  -- the block's part of a contraction, as the sequence of terms the specification sums
  have block : ∀ (n : ℕ) (hn : n < N) (r : Fin 1024) (s : Fin 512) (p : Fin 4096) (q : Fin 2048),
      p.val = 1024 * (n / 32) + r.val → q.val = 512 * (n / 8 % 4) + s.val →
      (∑ k : Fin 256, xb n hn (ix2 r k) * wxb n hn (ix2 k s)) = ∑ k : Fin 256, Lstm.term A Wx p q (256 * (n % 8) + k.val)
      ∧ (∑ k : Fin 256, hb n hn (ix2 r k) * whb n hn (ix2 k s)) = ∑ k : Fin 256, Lstm.term H Wh p q (256 * (n % 8) + k.val) := by
    intro n hn r s p q hp hq
    have hlt : ∀ k : Fin 256, 256 * (n % 8) + k.val < 2048 := fun k => by have := k.isLt; omega
    constructor
    · refine Finset.sum_congr rfl fun k _ => ?_
      rw [Lstm.term_lt A Wx p q _ (hlt k), hx n hn r k p ⟨_, hlt k⟩ hp rfl, hwx n hn k s ⟨_, hlt k⟩ q rfl hq]
    · refine Finset.sum_congr rfl fun k _ => ?_
      rw [Lstm.term_lt H Wh p q _ (hlt k), hh n hn r k p ⟨_, hlt k⟩ hp rfl, hwh n hn k s ⟨_, hlt k⟩ q rfl hq]
  intro n
  induction n with
  | zero =>
    intro hn r s p q hp hq
    obtain ⟨e1, e2⟩ := block 0 hn r s p q hp hq
    rw [h0 0 hn rfl, Tile.step_apply, Tile.zero_apply, e1, e2]
    show _ = Lstm.accAfter A H Wx Wh p q (0 + 1)
    rw [Lstm.accAfter_succ, Lstm.accAfter_zero]
  | succ n ih =>
    intro hn r s p q hp hq
    obtain ⟨e1, e2⟩ := block (n + 1) hn r s p q hp hq
    by_cases h8 : (n + 1) % 8 = 0
    · rw [h0 (n + 1) hn h8, Tile.step_apply, Tile.zero_apply, e1, e2, h8]
      show _ = Lstm.accAfter A H Wx Wh p q (0 + 1)
      rw [Lstm.accAfter_succ, Lstm.accAfter_zero]
    · have hk : (n + 1) % 8 = n % 8 + 1 := by omega
      rw [hs n hn h8, Tile.step_apply, e1, e2, hk, Lstm.accAfter_succ A H Wx Wh p q (n % 8 + 1),
        ih (Nat.lt_of_succ_lt hn) r s p q (by omega) (by omega)]

end Cert.KernelIdeal.Fold

end
-- ==== Proof.CellRun.lean ====
import proofs.«177769_j16183436772221_2_alg».proof.Proof.Gen.KernelIdeal.Value
import proofs.«177769_j16183436772221_2_alg».proof.Proof.Pieces
import proofs.«177769_j16183436772221_2_alg».proof.Proof.Blocks
import proofs.«177769_j16183436772221_2_alg».proof.Proof.Fold

/-!
# The kernel computes the LSTM cell

Put together: after point `n` each gate's running tile holds, entry by entry, the first `256 (n % 8 + 1)` terms of
its two contractions (`acc_i` … `acc_o`, by `Fold.entry` over what each way of running the body leaves). At the
last point of a run (`n % 8 = 7`) that is all 2048 terms, the body adds the bias rows and applies the gates, and the
two tiles it writes are the cell's new state and new hidden state at the tile's place in the arrays
(`cell_entry`, `hidden_entry`). Those are the only points that write a result tile back; their 16 tiles of
1024 × 512 cover the 4096 × 2048 arrays, so after the run the two result arrays are `Lstm.hiddenArr` and
`Lstm.cellArr` of the arguments.
-/

set_option maxRecDepth 16384

noncomputable section

namespace Cert.KernelIdeal.CellRun

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (ρ : Dev nD → PrngReg)

/-! ## The running tiles after any point -/

/-- The input gate's running tile after point `n`. -/
theorem acc_i (c : Dev nD) (n : ℕ) (hn : n < cfg0.N) (r : Fin 1024) (s : Fin 512) (p : Fin 4096) (q : Fin 2048)
    (hp : p.val = 1024 * (n / 32) + r.val) (hq : q.val = 512 * (n / 8 % 4) + s.val) :
    (outsAt0 m c n hn).2.2.1 (ix2 r s)
      = Lstm.accAfter (Blocks.inputs m c).x (Blocks.inputs m c).h (Blocks.inputs m c).wxi (Blocks.inputs m c).whi p q (n % 8 + 1) := by
  refine Fold.entry cfg0.N _ _ _ _
    (fun n hn => iblk m c 0 ⟨n, hn⟩) (fun n hn => iblk m c 1 ⟨n, hn⟩) (fun n hn => iblk m c 2 ⟨n, hn⟩) (fun n hn => iblk m c 3 ⟨n, hn⟩)
    (fun n hn r k p d hp hd => Blocks.blk_x m c ⟨n, hn⟩ r k p d hp hd)
    (fun n hn r k p d hp hd => Blocks.blk_h m c ⟨n, hn⟩ r k p d hp hd)
    (fun n hn k s d q hd hq => Blocks.blk_wxi m c ⟨n, hn⟩ k s d q hd hq)
    (fun n hn k s d q hd hq => Blocks.blk_whi m c ⟨n, hn⟩ k s d q hd hq)
    (fun n hn => (outsAt0 m c n hn).2.2.1) ?_ ?_ n hn r s p q hp hq
  · intro n hn h0
    have hN := lt_of_lt_of_eq hn (show cfg0.N = 128 from N_0)
    have h1 : ¬n % 8 = 7 := by omega
    rw [outsAt0_A m c ⟨n, hn⟩ h0 h1]
    dsimp only
    exact Pieces.first_i (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) scM0_0 (Memref.isWhole_whole _) scM0_1 (Memref.isWhole_whole _) scM0_2 (Memref.isWhole_whole _) scM0_3 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩)
      ((hcond0_0 ⟨n, hn⟩).mpr h0) (fun h => h1 ((hcond0_1 ⟨n, hn⟩).mp h))
  · intro n hn h8
    by_cases h7 : (n + 1) % 8 = 7
    · rw [outsAt0_C m c ⟨n + 1, hn⟩ h8 h7]
      dsimp only
      exact Pieces.last_i (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) ((hcond0_1 ⟨n + 1, hn⟩).mpr h7)
    · rw [outsAt0_B m c ⟨n + 1, hn⟩ h8 h7]
      dsimp only
      exact Pieces.later_i (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) (fun h => h7 ((hcond0_1 ⟨n + 1, hn⟩).mp h))

/-- The forget gate's running tile after point `n`. -/
theorem acc_f (c : Dev nD) (n : ℕ) (hn : n < cfg0.N) (r : Fin 1024) (s : Fin 512) (p : Fin 4096) (q : Fin 2048)
    (hp : p.val = 1024 * (n / 32) + r.val) (hq : q.val = 512 * (n / 8 % 4) + s.val) :
    (outsAt0 m c n hn).2.2.2.1 (ix2 r s)
      = Lstm.accAfter (Blocks.inputs m c).x (Blocks.inputs m c).h (Blocks.inputs m c).wxf (Blocks.inputs m c).whf p q (n % 8 + 1) := by
  refine Fold.entry cfg0.N _ _ _ _
    (fun n hn => iblk m c 0 ⟨n, hn⟩) (fun n hn => iblk m c 1 ⟨n, hn⟩) (fun n hn => iblk m c 5 ⟨n, hn⟩) (fun n hn => iblk m c 6 ⟨n, hn⟩)
    (fun n hn r k p d hp hd => Blocks.blk_x m c ⟨n, hn⟩ r k p d hp hd)
    (fun n hn r k p d hp hd => Blocks.blk_h m c ⟨n, hn⟩ r k p d hp hd)
    (fun n hn k s d q hd hq => Blocks.blk_wxf m c ⟨n, hn⟩ k s d q hd hq)
    (fun n hn k s d q hd hq => Blocks.blk_whf m c ⟨n, hn⟩ k s d q hd hq)
    (fun n hn => (outsAt0 m c n hn).2.2.2.1) ?_ ?_ n hn r s p q hp hq
  · intro n hn h0
    have hN := lt_of_lt_of_eq hn (show cfg0.N = 128 from N_0)
    have h1 : ¬n % 8 = 7 := by omega
    rw [outsAt0_A m c ⟨n, hn⟩ h0 h1]
    dsimp only
    exact Pieces.first_f (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) scM0_0 (Memref.isWhole_whole _) scM0_1 (Memref.isWhole_whole _) scM0_2 (Memref.isWhole_whole _) scM0_3 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩)
      ((hcond0_0 ⟨n, hn⟩).mpr h0) (fun h => h1 ((hcond0_1 ⟨n, hn⟩).mp h))
  · intro n hn h8
    by_cases h7 : (n + 1) % 8 = 7
    · rw [outsAt0_C m c ⟨n + 1, hn⟩ h8 h7]
      dsimp only
      exact Pieces.last_f (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) ((hcond0_1 ⟨n + 1, hn⟩).mpr h7)
    · rw [outsAt0_B m c ⟨n + 1, hn⟩ h8 h7]
      dsimp only
      exact Pieces.later_f (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) (fun h => h7 ((hcond0_1 ⟨n + 1, hn⟩).mp h))

/-- The candidate's running tile after point `n`. -/
theorem acc_c (c : Dev nD) (n : ℕ) (hn : n < cfg0.N) (r : Fin 1024) (s : Fin 512) (p : Fin 4096) (q : Fin 2048)
    (hp : p.val = 1024 * (n / 32) + r.val) (hq : q.val = 512 * (n / 8 % 4) + s.val) :
    (outsAt0 m c n hn).2.2.2.2.1 (ix2 r s)
      = Lstm.accAfter (Blocks.inputs m c).x (Blocks.inputs m c).h (Blocks.inputs m c).wxc (Blocks.inputs m c).whc p q (n % 8 + 1) := by
  refine Fold.entry cfg0.N _ _ _ _
    (fun n hn => iblk m c 0 ⟨n, hn⟩) (fun n hn => iblk m c 1 ⟨n, hn⟩) (fun n hn => iblk m c 8 ⟨n, hn⟩) (fun n hn => iblk m c 9 ⟨n, hn⟩)
    (fun n hn r k p d hp hd => Blocks.blk_x m c ⟨n, hn⟩ r k p d hp hd)
    (fun n hn r k p d hp hd => Blocks.blk_h m c ⟨n, hn⟩ r k p d hp hd)
    (fun n hn k s d q hd hq => Blocks.blk_wxc m c ⟨n, hn⟩ k s d q hd hq)
    (fun n hn k s d q hd hq => Blocks.blk_whc m c ⟨n, hn⟩ k s d q hd hq)
    (fun n hn => (outsAt0 m c n hn).2.2.2.2.1) ?_ ?_ n hn r s p q hp hq
  · intro n hn h0
    have hN := lt_of_lt_of_eq hn (show cfg0.N = 128 from N_0)
    have h1 : ¬n % 8 = 7 := by omega
    rw [outsAt0_A m c ⟨n, hn⟩ h0 h1]
    dsimp only
    exact Pieces.first_c (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) scM0_0 (Memref.isWhole_whole _) scM0_1 (Memref.isWhole_whole _) scM0_2 (Memref.isWhole_whole _) scM0_3 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩)
      ((hcond0_0 ⟨n, hn⟩).mpr h0) (fun h => h1 ((hcond0_1 ⟨n, hn⟩).mp h))
  · intro n hn h8
    by_cases h7 : (n + 1) % 8 = 7
    · rw [outsAt0_C m c ⟨n + 1, hn⟩ h8 h7]
      dsimp only
      exact Pieces.last_c (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) ((hcond0_1 ⟨n + 1, hn⟩).mpr h7)
    · rw [outsAt0_B m c ⟨n + 1, hn⟩ h8 h7]
      dsimp only
      exact Pieces.later_c (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) (fun h => h7 ((hcond0_1 ⟨n + 1, hn⟩).mp h))

/-- The output gate's running tile after point `n`. -/
theorem acc_o (c : Dev nD) (n : ℕ) (hn : n < cfg0.N) (r : Fin 1024) (s : Fin 512) (p : Fin 4096) (q : Fin 2048)
    (hp : p.val = 1024 * (n / 32) + r.val) (hq : q.val = 512 * (n / 8 % 4) + s.val) :
    (outsAt0 m c n hn).2.2.2.2.2 (ix2 r s)
      = Lstm.accAfter (Blocks.inputs m c).x (Blocks.inputs m c).h (Blocks.inputs m c).wxo (Blocks.inputs m c).who p q (n % 8 + 1) := by
  refine Fold.entry cfg0.N _ _ _ _
    (fun n hn => iblk m c 0 ⟨n, hn⟩) (fun n hn => iblk m c 1 ⟨n, hn⟩) (fun n hn => iblk m c 11 ⟨n, hn⟩) (fun n hn => iblk m c 12 ⟨n, hn⟩)
    (fun n hn r k p d hp hd => Blocks.blk_x m c ⟨n, hn⟩ r k p d hp hd)
    (fun n hn r k p d hp hd => Blocks.blk_h m c ⟨n, hn⟩ r k p d hp hd)
    (fun n hn k s d q hd hq => Blocks.blk_wxo m c ⟨n, hn⟩ k s d q hd hq)
    (fun n hn k s d q hd hq => Blocks.blk_who m c ⟨n, hn⟩ k s d q hd hq)
    (fun n hn => (outsAt0 m c n hn).2.2.2.2.2) ?_ ?_ n hn r s p q hp hq
  · intro n hn h0
    have hN := lt_of_lt_of_eq hn (show cfg0.N = 128 from N_0)
    have h1 : ¬n % 8 = 7 := by omega
    rw [outsAt0_A m c ⟨n, hn⟩ h0 h1]
    dsimp only
    exact Pieces.first_o (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) (ms0_5 ⟨n, hn⟩) (hs0_5 ⟨n, hn⟩) (ms0_6 ⟨n, hn⟩) (hs0_6 ⟨n, hn⟩) (ms0_7 ⟨n, hn⟩) (hs0_7 ⟨n, hn⟩) (ms0_8 ⟨n, hn⟩) (hs0_8 ⟨n, hn⟩) (ms0_9 ⟨n, hn⟩) (hs0_9 ⟨n, hn⟩) (ms0_10 ⟨n, hn⟩) (hs0_10 ⟨n, hn⟩) (ms0_11 ⟨n, hn⟩) (hs0_11 ⟨n, hn⟩) (ms0_12 ⟨n, hn⟩) (hs0_12 ⟨n, hn⟩) (ms0_13 ⟨n, hn⟩) (hs0_13 ⟨n, hn⟩) (ms0_14 ⟨n, hn⟩) (hs0_14 ⟨n, hn⟩) (ms0_15 ⟨n, hn⟩) (hs0_15 ⟨n, hn⟩) (ms0_16 ⟨n, hn⟩) (hs0_16 ⟨n, hn⟩) scM0_0 (Memref.isWhole_whole _) scM0_1 (Memref.isWhole_whole _) scM0_2 (Memref.isWhole_whole _) scM0_3 (Memref.isWhole_whole _) (iblk m c 0 ⟨n, hn⟩) (iblk m c 1 ⟨n, hn⟩) (iblk m c 2 ⟨n, hn⟩) (iblk m c 3 ⟨n, hn⟩) (iblk m c 4 ⟨n, hn⟩) (iblk m c 5 ⟨n, hn⟩) (iblk m c 6 ⟨n, hn⟩) (iblk m c 7 ⟨n, hn⟩) (iblk m c 8 ⟨n, hn⟩) (iblk m c 9 ⟨n, hn⟩) (iblk m c 10 ⟨n, hn⟩) (iblk m c 11 ⟨n, hn⟩) (iblk m c 12 ⟨n, hn⟩) (iblk m c 13 ⟨n, hn⟩) (iblk m c 14 ⟨n, hn⟩)
      ((hcond0_0 ⟨n, hn⟩).mpr h0) (fun h => h1 ((hcond0_1 ⟨n, hn⟩).mp h))
  · intro n hn h8
    by_cases h7 : (n + 1) % 8 = 7
    · rw [outsAt0_C m c ⟨n + 1, hn⟩ h8 h7]
      dsimp only
      exact Pieces.last_o (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) ((hcond0_1 ⟨n + 1, hn⟩).mpr h7)
    · rw [outsAt0_B m c ⟨n + 1, hn⟩ h8 h7]
      dsimp only
      exact Pieces.later_o (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (ms0_14 ⟨n + 1, hn⟩) (hs0_14 ⟨n + 1, hn⟩) (ms0_15 ⟨n + 1, hn⟩) (hs0_15 ⟨n + 1, hn⟩) (ms0_16 ⟨n + 1, hn⟩) (hs0_16 ⟨n + 1, hn⟩) scM0_0 (Memref.isWhole_whole _) scM0_1 (Memref.isWhole_whole _) scM0_2 (Memref.isWhole_whole _) scM0_3 (Memref.isWhole_whole _) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (iblk m c 10 ⟨n + 1, hn⟩) (iblk m c 11 ⟨n + 1, hn⟩) (iblk m c 12 ⟨n + 1, hn⟩) (iblk m c 13 ⟨n + 1, hn⟩) (iblk m c 14 ⟨n + 1, hn⟩)
        (outsAt0 m c ((⟨n + 1, hn⟩ : Fin cfg0.N).val - 1) (Nat.lt_of_le_of_lt (Nat.sub_le _ _) (⟨n + 1, hn⟩ : Fin cfg0.N).isLt)).2.2.1 (outsAt0 m c ((⟨n + 1, hn⟩ : Fin cfg0.N).val - 1) (Nat.lt_of_le_of_lt (Nat.sub_le _ _) (⟨n + 1, hn⟩ : Fin cfg0.N).isLt)).2.2.2.1 (outsAt0 m c ((⟨n + 1, hn⟩ : Fin cfg0.N).val - 1) (Nat.lt_of_le_of_lt (Nat.sub_le _ _) (⟨n + 1, hn⟩ : Fin cfg0.N).isLt)).2.2.2.2.1 (outsAt0 m c ((⟨n + 1, hn⟩ : Fin cfg0.N).val - 1) (Nat.lt_of_le_of_lt (Nat.sub_le _ _) (⟨n + 1, hn⟩ : Fin cfg0.N).isLt)).2.2.2.2.2
        (fun h => h8 ((hcond0_0 ⟨n + 1, hn⟩).mp h)) (fun h => h7 ((hcond0_1 ⟨n + 1, hn⟩).mp h))

/-! ## The last point of a run -/

/-- At the last point of a run the freshly stepped input gate tile holds both whole products. -/
theorem full_i (c : Dev nD) (t : Fin cfg0.N) (h0 : ¬t.val % 8 = 0) (h7 : t.val % 8 = 7) (r : Fin 1024) (s : Fin 512)
    (p : Fin 4096) (q : Fin 2048) (hp : p.val = 1024 * (t.val / 32) + r.val) (hq : q.val = 512 * (t.val / 8 % 4) + s.val) :
    (Tile.step (outsAt0 m c (t.val - 1) (Nat.lt_of_le_of_lt (Nat.sub_le _ _) t.isLt)).2.2.1 (iblk m c 0 t) (iblk m c 2 t) (iblk m c 1 t) (iblk m c 3 t)) (ix2 r s)
      = Lstm.dot (Blocks.inputs m c).x (Blocks.inputs m c).wxi p q + Lstm.dot (Blocks.inputs m c).h (Blocks.inputs m c).whi p q := by
  have e := acc_i m c t.val t.isLt r s p q hp hq
  rw [outsAt0_C m c t h0 h7] at e
  dsimp only at e
  rw [Pieces.last_i (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h)) ((hcond0_1 t).mpr h7), h7] at e
  rw [e]
  exact Lstm.accAfter_all _ _ _ _ p q

/-- At the last point of a run the freshly stepped forget gate tile holds both whole products. -/
theorem full_f (c : Dev nD) (t : Fin cfg0.N) (h0 : ¬t.val % 8 = 0) (h7 : t.val % 8 = 7) (r : Fin 1024) (s : Fin 512)
    (p : Fin 4096) (q : Fin 2048) (hp : p.val = 1024 * (t.val / 32) + r.val) (hq : q.val = 512 * (t.val / 8 % 4) + s.val) :
    (Tile.step (outsAt0 m c (t.val - 1) (Nat.lt_of_le_of_lt (Nat.sub_le _ _) t.isLt)).2.2.2.1 (iblk m c 0 t) (iblk m c 5 t) (iblk m c 1 t) (iblk m c 6 t)) (ix2 r s)
      = Lstm.dot (Blocks.inputs m c).x (Blocks.inputs m c).wxf p q + Lstm.dot (Blocks.inputs m c).h (Blocks.inputs m c).whf p q := by
  have e := acc_f m c t.val t.isLt r s p q hp hq
  rw [outsAt0_C m c t h0 h7] at e
  dsimp only at e
  rw [Pieces.last_f (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h)) ((hcond0_1 t).mpr h7), h7] at e
  rw [e]
  exact Lstm.accAfter_all _ _ _ _ p q

/-- At the last point of a run the freshly stepped candidate tile holds both whole products. -/
theorem full_c (c : Dev nD) (t : Fin cfg0.N) (h0 : ¬t.val % 8 = 0) (h7 : t.val % 8 = 7) (r : Fin 1024) (s : Fin 512)
    (p : Fin 4096) (q : Fin 2048) (hp : p.val = 1024 * (t.val / 32) + r.val) (hq : q.val = 512 * (t.val / 8 % 4) + s.val) :
    (Tile.step (outsAt0 m c (t.val - 1) (Nat.lt_of_le_of_lt (Nat.sub_le _ _) t.isLt)).2.2.2.2.1 (iblk m c 0 t) (iblk m c 8 t) (iblk m c 1 t) (iblk m c 9 t)) (ix2 r s)
      = Lstm.dot (Blocks.inputs m c).x (Blocks.inputs m c).wxc p q + Lstm.dot (Blocks.inputs m c).h (Blocks.inputs m c).whc p q := by
  have e := acc_c m c t.val t.isLt r s p q hp hq
  rw [outsAt0_C m c t h0 h7] at e
  dsimp only at e
  rw [Pieces.last_c (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h)) ((hcond0_1 t).mpr h7), h7] at e
  rw [e]
  exact Lstm.accAfter_all _ _ _ _ p q

/-- At the last point of a run the freshly stepped output gate tile holds both whole products. -/
theorem full_o (c : Dev nD) (t : Fin cfg0.N) (h0 : ¬t.val % 8 = 0) (h7 : t.val % 8 = 7) (r : Fin 1024) (s : Fin 512)
    (p : Fin 4096) (q : Fin 2048) (hp : p.val = 1024 * (t.val / 32) + r.val) (hq : q.val = 512 * (t.val / 8 % 4) + s.val) :
    (Tile.step (outsAt0 m c (t.val - 1) (Nat.lt_of_le_of_lt (Nat.sub_le _ _) t.isLt)).2.2.2.2.2 (iblk m c 0 t) (iblk m c 11 t) (iblk m c 1 t) (iblk m c 12 t)) (ix2 r s)
      = Lstm.dot (Blocks.inputs m c).x (Blocks.inputs m c).wxo p q + Lstm.dot (Blocks.inputs m c).h (Blocks.inputs m c).who p q := by
  have e := acc_o m c t.val t.isLt r s p q hp hq
  rw [outsAt0_C m c t h0 h7] at e
  dsimp only at e
  rw [Pieces.last_o (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h)) ((hcond0_1 t).mpr h7), h7] at e
  rw [e]
  exact Lstm.accAfter_all _ _ _ _ p q

/-- The tile of the new cell state written at the last point of a run, entry by entry. -/
theorem cell_entry (c : Dev nD) (t : Fin cfg0.N) (h0 : ¬t.val % 8 = 0) (h7 : t.val % 8 = 7) (r : Fin 1024) (s : Fin 512)
    (p : Fin 4096) (q : Fin 2048) (hp : p.val = 1024 * (t.val / 32) + r.val) (hq : q.val = 512 * (t.val / 8 % 4) + s.val) :
    (outsAt0 m c t.val t.isLt).2.1 (ix2 r s) = Lstm.cell (Blocks.inputs m c) p q := by
  rw [outsAt0_C m c t h0 h7]
  dsimp only
  rw [Pieces.last_cell (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h)) ((hcond0_1 t).mpr h7)]
  refine (Tile.cell_apply (Tile.step (outsAt0 m c (t.val - 1) (Nat.lt_of_le_of_lt (Nat.sub_le _ _) t.isLt)).2.2.1 (iblk m c 0 t) (iblk m c 2 t) (iblk m c 1 t) (iblk m c 3 t)) (Tile.step (outsAt0 m c (t.val - 1) (Nat.lt_of_le_of_lt (Nat.sub_le _ _) t.isLt)).2.2.2.1 (iblk m c 0 t) (iblk m c 5 t) (iblk m c 1 t) (iblk m c 6 t)) (Tile.step (outsAt0 m c (t.val - 1) (Nat.lt_of_le_of_lt (Nat.sub_le _ _) t.isLt)).2.2.2.2.1 (iblk m c 0 t) (iblk m c 8 t) (iblk m c 1 t) (iblk m c 9 t)) (iblk m c 14 t) (iblk m c 4 t) (iblk m c 7 t) (iblk m c 10 t) r s).trans ?_
  rw [full_i m c t h0 h7 r s p q hp hq, full_f m c t h0 h7 r s p q hp hq, full_c m c t h0 h7 r s p q hp hq,
    Blocks.blk_bi m c t s q hq, Blocks.blk_bf m c t s q hq, Blocks.blk_bc m c t s q hq, Blocks.blk_c m c t r s p q hp hq]
  rfl

/-- The tile of the new hidden state written at the last point of a run, entry by entry. -/
theorem hidden_entry (c : Dev nD) (t : Fin cfg0.N) (h0 : ¬t.val % 8 = 0) (h7 : t.val % 8 = 7) (r : Fin 1024) (s : Fin 512)
    (p : Fin 4096) (q : Fin 2048) (hp : p.val = 1024 * (t.val / 32) + r.val) (hq : q.val = 512 * (t.val / 8 % 4) + s.val) :
    (outsAt0 m c t.val t.isLt).1 (ix2 r s) = Lstm.hidden (Blocks.inputs m c) p q := by
  rw [outsAt0_C m c t h0 h7]
  dsimp only
  rw [Pieces.last_hidden (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
    (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2
    (fun h => h0 ((hcond0_0 t).mp h)) ((hcond0_1 t).mpr h7)]
  refine (Tile.hidden_apply (Tile.step (outsAt0 m c (t.val - 1) (Nat.lt_of_le_of_lt (Nat.sub_le _ _) t.isLt)).2.2.1 (iblk m c 0 t) (iblk m c 2 t) (iblk m c 1 t) (iblk m c 3 t)) (Tile.step (outsAt0 m c (t.val - 1) (Nat.lt_of_le_of_lt (Nat.sub_le _ _) t.isLt)).2.2.2.1 (iblk m c 0 t) (iblk m c 5 t) (iblk m c 1 t) (iblk m c 6 t)) (Tile.step (outsAt0 m c (t.val - 1) (Nat.lt_of_le_of_lt (Nat.sub_le _ _) t.isLt)).2.2.2.2.1 (iblk m c 0 t) (iblk m c 8 t) (iblk m c 1 t) (iblk m c 9 t)) (iblk m c 14 t) (Tile.step (outsAt0 m c (t.val - 1) (Nat.lt_of_le_of_lt (Nat.sub_le _ _) t.isLt)).2.2.2.2.2 (iblk m c 0 t) (iblk m c 11 t) (iblk m c 1 t) (iblk m c 12 t)) (iblk m c 4 t) (iblk m c 7 t) (iblk m c 10 t) (iblk m c 13 t) r s).trans ?_
  refine (congrArg (fun z => _ * Ideal.tanh z) (Tile.cell_apply (Tile.step (outsAt0 m c (t.val - 1) (Nat.lt_of_le_of_lt (Nat.sub_le _ _) t.isLt)).2.2.1 (iblk m c 0 t) (iblk m c 2 t) (iblk m c 1 t) (iblk m c 3 t)) (Tile.step (outsAt0 m c (t.val - 1) (Nat.lt_of_le_of_lt (Nat.sub_le _ _) t.isLt)).2.2.2.1 (iblk m c 0 t) (iblk m c 5 t) (iblk m c 1 t) (iblk m c 6 t)) (Tile.step (outsAt0 m c (t.val - 1) (Nat.lt_of_le_of_lt (Nat.sub_le _ _) t.isLt)).2.2.2.2.1 (iblk m c 0 t) (iblk m c 8 t) (iblk m c 1 t) (iblk m c 9 t)) (iblk m c 14 t) (iblk m c 4 t) (iblk m c 7 t) (iblk m c 10 t) r s)).trans ?_
  rw [full_i m c t h0 h7 r s p q hp hq, full_f m c t h0 h7 r s p q hp hq, full_c m c t h0 h7 r s p q hp hq,
    full_o m c t h0 h7 r s p q hp hq,
    Blocks.blk_bi m c t s q hq, Blocks.blk_bf m c t s q hq, Blocks.blk_bc m c t s q hq, Blocks.blk_bo m c t s q hq,
    Blocks.blk_c m c t r s p q hp hq]
  rfl

/-! ## From tiles to the arrays -/

/-- What a last point writes back to the hidden-state array is its tile of `Lstm.hiddenArr`. -/
theorem flushed_hidden (c : Dev nD) (t : Fin cfg0.N) (hf : (cfg0.win 15).flush t = true) :
    (dats m 0 c).flushed 15 t = ((cfg0.win 15).blk t).view.read (Elt Ideal) (Lstm.hiddenArr (Blocks.inputs m c)) := by
  have h7 : t.val % 8 = 7 := (flush0_15 t).mp hf
  have h0 : ¬t.val % 8 = 0 := by omega
  have hN := lt_of_lt_of_eq t.isLt (show cfg0.N = 128 from N_0)
  rw [Value.flushed15]
  funext j
  obtain ⟨r, s, rfl⟩ : ∃ (r : Fin 1024) (s : Fin 512), j = ix2 r s := ⟨j 0, j 1, eq_ix2 j⟩
  have hp : 1024 * (t.val / 32) + r.val < 4096 := by have := r.isLt; omega
  have hq : 512 * (t.val / 8 % 4) + s.val < 2048 := by have := s.isLt; omega
  show (outsAt0 m c t.val t.isLt).1 (ix2 r s) = Lstm.hiddenArr (Blocks.inputs m c) (((cfg0.win 15).blk t).view.emb (ix2 r s))
  have e : ((cfg0.win 15).blk t).view.emb (ix2 r s) = ix2 (⟨_, hp⟩ : Fin 4096) (⟨_, hq⟩ : Fin 2048) :=
    funext fun a => Fin.ext (by
      match a with
      | ⟨0, _⟩ => show win0_15.index t 0 * 1024 + 1 * r.val = 1024 * (t.val / 32) + r.val; rw [(Blocks.index15 t).1]; omega
      | ⟨1, _⟩ => show win0_15.index t 1 * 512 + 1 * s.val = 512 * (t.val / 8 % 4) + s.val; rw [(Blocks.index15 t).2]; omega)
  rw [e, hidden_entry m c t h0 h7 r s ⟨_, hp⟩ ⟨_, hq⟩ rfl rfl]
  rfl

/-- An entry of the hidden-state array lies in point `t`'s tile iff each coordinate is in the tile's range. -/
theorem mem_tile_hidden (t : Fin cfg0.N) (i : S4096x2048.Idx) :
    i ∈ ((cfg0.win 15).blk t).view.set ↔ ∀ a : Fin 2, win0_15.index t a * S1024x512.size a ≤ (i a).val
      ∧ (i a).val < win0_15.index t a * S1024x512.size a + S1024x512.size a := by
  show i ∈ ((View.whole main_v14_0).slice (win0_15.rect t)).set ↔ _
  rw [View.set_slice_whole, Rect.mem_set_unit]
  exact Iff.rfl

/-- Every entry of the hidden-state array is in the tile some last point writes back: the point of row block
    `i₀ / 1024`, column block `i₁ / 512` and `k = 7`. -/
theorem cover_hidden (i : S4096x2048.Idx) :
    ∃ t : Fin cfg0.N, (cfg0.win 15).flush t = true ∧ i ∈ ((cfg0.win 15).blk t).view.set := by
  have h0 : (i 0).val < 4096 := (i 0).isLt
  have h1 : (i 1).val < 2048 := (i 1).isLt
  have hN : cfg0.N = 128 := N_0
  have ht : 32 * ((i 0).val / 1024) + 8 * ((i 1).val / 512) + 7 < cfg0.N := by rw [hN]; omega
  refine ⟨⟨_, ht⟩, (flush0_15 _).mpr (by show (32 * ((i 0).val / 1024) + 8 * ((i 1).val / 512) + 7) % 8 = 7; omega), ?_⟩
  rw [mem_tile_hidden]
  intro a
  match a with
  | ⟨0, _⟩ =>
    show win0_15.index ⟨_, ht⟩ 0 * 1024 ≤ (i 0).val ∧ (i 0).val < win0_15.index ⟨_, ht⟩ 0 * 1024 + 1024
    rw [(Blocks.index15 ⟨_, ht⟩).1]
    show (32 * ((i 0).val / 1024) + 8 * ((i 1).val / 512) + 7) / 32 * 1024 ≤ (i 0).val
      ∧ (i 0).val < (32 * ((i 0).val / 1024) + 8 * ((i 1).val / 512) + 7) / 32 * 1024 + 1024
    omega
  | ⟨1, _⟩ =>
    show win0_15.index ⟨_, ht⟩ 1 * 512 ≤ (i 1).val ∧ (i 1).val < win0_15.index ⟨_, ht⟩ 1 * 512 + 512
    rw [(Blocks.index15 ⟨_, ht⟩).2]
    show (32 * ((i 0).val / 1024) + 8 * ((i 1).val / 512) + 7) / 8 % 4 * 512 ≤ (i 1).val
      ∧ (i 1).val < (32 * ((i 0).val / 1024) + 8 * ((i 1).val / 512) + 7) / 8 % 4 * 512 + 512
    omega

/-- The hidden-state array after the run. -/
theorem final_hidden (c : Dev nD) : (dats m 0 c).arrAt 15 cfg0.N = Lstm.hiddenArr (Blocks.inputs m c) :=
  (dats m 0 c).arrAt_eq_of_cover 15 (Lstm.hiddenArr (Blocks.inputs m c)) (flushed_hidden m c) cover_hidden

/-- What a last point writes back to the cell-state array is its tile of `Lstm.cellArr`. -/
theorem flushed_cell (c : Dev nD) (t : Fin cfg0.N) (hf : (cfg0.win 16).flush t = true) :
    (dats m 0 c).flushed 16 t = ((cfg0.win 16).blk t).view.read (Elt Ideal) (Lstm.cellArr (Blocks.inputs m c)) := by
  have h7 : t.val % 8 = 7 := (flush0_16 t).mp hf
  have h0 : ¬t.val % 8 = 0 := by omega
  have hN := lt_of_lt_of_eq t.isLt (show cfg0.N = 128 from N_0)
  rw [Value.flushed16]
  funext j
  obtain ⟨r, s, rfl⟩ : ∃ (r : Fin 1024) (s : Fin 512), j = ix2 r s := ⟨j 0, j 1, eq_ix2 j⟩
  have hp : 1024 * (t.val / 32) + r.val < 4096 := by have := r.isLt; omega
  have hq : 512 * (t.val / 8 % 4) + s.val < 2048 := by have := s.isLt; omega
  show (outsAt0 m c t.val t.isLt).2.1 (ix2 r s) = Lstm.cellArr (Blocks.inputs m c) (((cfg0.win 16).blk t).view.emb (ix2 r s))
  have e : ((cfg0.win 16).blk t).view.emb (ix2 r s) = ix2 (⟨_, hp⟩ : Fin 4096) (⟨_, hq⟩ : Fin 2048) :=
    funext fun a => Fin.ext (by
      match a with
      | ⟨0, _⟩ => show win0_16.index t 0 * 1024 + 1 * r.val = 1024 * (t.val / 32) + r.val; rw [(Blocks.index16 t).1]; omega
      | ⟨1, _⟩ => show win0_16.index t 1 * 512 + 1 * s.val = 512 * (t.val / 8 % 4) + s.val; rw [(Blocks.index16 t).2]; omega)
  rw [e, cell_entry m c t h0 h7 r s ⟨_, hp⟩ ⟨_, hq⟩ rfl rfl]
  rfl

/-- An entry of the cell-state array lies in point `t`'s tile iff each coordinate is in the tile's range. -/
theorem mem_tile_cell (t : Fin cfg0.N) (i : S4096x2048.Idx) :
    i ∈ ((cfg0.win 16).blk t).view.set ↔ ∀ a : Fin 2, win0_16.index t a * S1024x512.size a ≤ (i a).val
      ∧ (i a).val < win0_16.index t a * S1024x512.size a + S1024x512.size a := by
  show i ∈ ((View.whole main_v14_1).slice (win0_16.rect t)).set ↔ _
  rw [View.set_slice_whole, Rect.mem_set_unit]
  exact Iff.rfl

/-- Every entry of the cell-state array is in the tile some last point writes back: the point of row block
    `i₀ / 1024`, column block `i₁ / 512` and `k = 7`. -/
theorem cover_cell (i : S4096x2048.Idx) :
    ∃ t : Fin cfg0.N, (cfg0.win 16).flush t = true ∧ i ∈ ((cfg0.win 16).blk t).view.set := by
  have h0 : (i 0).val < 4096 := (i 0).isLt
  have h1 : (i 1).val < 2048 := (i 1).isLt
  have hN : cfg0.N = 128 := N_0
  have ht : 32 * ((i 0).val / 1024) + 8 * ((i 1).val / 512) + 7 < cfg0.N := by rw [hN]; omega
  refine ⟨⟨_, ht⟩, (flush0_16 _).mpr (by show (32 * ((i 0).val / 1024) + 8 * ((i 1).val / 512) + 7) % 8 = 7; omega), ?_⟩
  rw [mem_tile_cell]
  intro a
  match a with
  | ⟨0, _⟩ =>
    show win0_16.index ⟨_, ht⟩ 0 * 1024 ≤ (i 0).val ∧ (i 0).val < win0_16.index ⟨_, ht⟩ 0 * 1024 + 1024
    rw [(Blocks.index16 ⟨_, ht⟩).1]
    show (32 * ((i 0).val / 1024) + 8 * ((i 1).val / 512) + 7) / 32 * 1024 ≤ (i 0).val
      ∧ (i 0).val < (32 * ((i 0).val / 1024) + 8 * ((i 1).val / 512) + 7) / 32 * 1024 + 1024
    omega
  | ⟨1, _⟩ =>
    show win0_16.index ⟨_, ht⟩ 1 * 512 ≤ (i 1).val ∧ (i 1).val < win0_16.index ⟨_, ht⟩ 1 * 512 + 512
    rw [(Blocks.index16 ⟨_, ht⟩).2]
    show (32 * ((i 0).val / 1024) + 8 * ((i 1).val / 512) + 7) / 8 % 4 * 512 ≤ (i 1).val
      ∧ (i 1).val < (32 * ((i 0).val / 1024) + 8 * ((i 1).val / 512) + 7) / 8 % 4 * 512 + 512
    omega

/-- The cell-state array after the run. -/
theorem final_cell (c : Dev nD) : (dats m 0 c).arrAt 16 cfg0.N = Lstm.cellArr (Blocks.inputs m c) :=
  (dats m 0 c).arrAt_eq_of_cover 16 (Lstm.cellArr (Blocks.inputs m c)) (flushed_cell m c) cover_cell

/-! ## The run -/

/-- Every weakly fair execution of the kernel program terminates with the two result arrays at the cell's new hidden
    and new cell state, and the fifteen arguments unchanged. -/
theorem run : θ_run defs (onTc (τ := τ) (main (F := Ideal))) ⟨m, fun _ => 0, ρ⟩ fun r => ∀ c : Dev nD,
      r.2.mem ((c : Thread nD τ).loc main_v14_0) = Lstm.hiddenArr (Blocks.inputs m c)
      ∧ r.2.mem ((c : Thread nD τ).loc main_v14_1) = Lstm.cellArr (Blocks.inputs m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun r h c => ⟨(h c).1.trans (final_hidden m c), (h c).2.1.trans (final_cell m c), (h c).2.2⟩)
    (Value.run_blocks m ρ)

end Cert.KernelIdeal.CellRun

end
-- ==== Proof.RefCell.lean ====
import proofs.«177769_j16183436772221_2_alg».proof.Proof.Gen.ReferenceIdeal.Read
import proofs.«177769_j16183436772221_2_alg».proof.Proof.Spec
import Idealize.ShloMosaic.Lib.IdealHost

/-!
# The reference computes the LSTM cell

The reference program is a line of host operations: per gate two `dot_general`s, their sum, the bias broadcast
along the batch, and the logistic function spelt `1 / (1 + exp (-z))` (or `tanh`); then the two products and the sum
that make the new cell state, and the product that makes the new hidden state. Read at an index `i = (p, q)`, every
operation is the scalar operation on its operands at `i`, a `dot_general` is the sum over the contracted axis, a bias
broadcast reads the bias at `q`, and `1 / (1 + exp (-z))` is the logistic function by its definition on the
extended reals. So the two results are `Lstm.hiddenArr` and `Lstm.cellArr` of the fifteen arguments.
-/

noncomputable section

namespace Cert.ReferenceIdeal.RefValue

open Cert.ReferenceIdeal Cert.ReferenceIdeal.Gen Cert.ReferenceIdeal.Read Idealize.ShloMosaic Idealize.ShloMosaic.ValueIdx

/-- The fifteen arguments, in the program's order, as the cell's inputs. -/
abbrev inp (x0 x1 x2 : (⟨S4096x2048, .f32⟩ : BufTy).Contents (Elt Ideal)) (x3 x4 : (⟨S2048x2048, .f32⟩ : BufTy).Contents (Elt Ideal)) (x5 : (⟨S2048, .f32⟩ : BufTy).Contents (Elt Ideal)) (x6 x7 : (⟨S2048x2048, .f32⟩ : BufTy).Contents (Elt Ideal)) (x8 : (⟨S2048, .f32⟩ : BufTy).Contents (Elt Ideal)) (x9 x10 : (⟨S2048x2048, .f32⟩ : BufTy).Contents (Elt Ideal)) (x11 : (⟨S2048, .f32⟩ : BufTy).Contents (Elt Ideal)) (x12 x13 : (⟨S2048x2048, .f32⟩ : BufTy).Contents (Elt Ideal)) (x14 : (⟨S2048, .f32⟩ : BufTy).Contents (Elt Ideal)) : Lstm.Inputs :=
  ⟨x0, x1, x2, x3, x4, x5, x6, x7, x8, x9, x10, x11, x12, x13, x14⟩

/-! ## The four pre-activations

Read at `(p, q)`, a `dot_general` is a sum over `k` whose left index is `(p, k)` and whose right index is `(k, q)`: that
is `Lstm.dot`. The bias, broadcast first to `1 × 2048` and then along the batch, is read at `q`. -/

/-- A contraction whose `k`-th term reads `A` at `(p, k)` and `W` at `(k, q)` is entry `(p, q)` of `A · W`. The index
functions `l`, `r` are described coordinate by coordinate, so that for the index functions of a `dot_general` each of the
four hypotheses holds by computation. -/
theorem sum_eq_dot (A : Lstm.Act.Idx → EReal) (W : Lstm.Wt.Idx → EReal) (p : Fin 4096) (q : Fin 2048)
    (l : Fin 2048 → Lstm.Act.Idx) (r : Fin 2048 → Lstm.Wt.Idx)
    (hl0 : ∀ k, l k 0 = p) (hl1 : ∀ k, l k 1 = k) (hr0 : ∀ k, r k 0 = k) (hr1 : ∀ k, r k 1 = q) :
    ∑ k : Fin 2048, A (l k) * W (r k) = Lstm.dot A W p q := by
  unfold Lstm.dot
  refine Finset.sum_congr rfl fun k _ => ?_
  rw [Lstm.term_lt A W p q k.val k.isLt, eq_ix2 (l k), eq_ix2 (r k), hl0, hl1, hr0, hr1]
  rfl

/-- The input gate's pre-activation (`%5`). -/
theorem pre_i (X H : Lstm.Act.Idx → EReal) (Wx Wh : Lstm.Wt.Idx → EReal) (b : Lstm.Bias.Idx → EReal) (p : Fin 4096) (q : Fin 2048) :
    val_main_v5 (F := Ideal) X H Wx Wh b (ix2 p q) = Lstm.pre X H Wx Wh b p q := by
  -- every operation read at `(p, q)`; the two contractions are `Lstm.dot`; the bias index, of rank 1, is `ix1` of its
  -- one coordinate, which computes to `q`; what is left is `Lstm.pre` unfolded
  rw [val_main_v5_apply, val_main_v2_apply, val_main_v0_apply, val_main_v1_apply, val_main_v4_apply, val_main_v3_apply,
    sum_eq_dot X Wx p q (lidx_main_v0 (ix2 p q)) (ridx_main_v0 (ix2 p q)) (fun _ => rfl) (fun _ => rfl) (fun _ => rfl) (fun _ => rfl),
    sum_eq_dot H Wh p q (lidx_main_v1 (ix2 p q)) (ridx_main_v1 (ix2 p q)) (fun _ => rfl) (fun _ => rfl) (fun _ => rfl) (fun _ => rfl),
    eq_ix1 (idx_main_v3 (idx_main_v4 (ix2 p q)))]
  rfl

/-- The forget gate's pre-activation (`%17`), in the same way. -/
theorem pre_f (X H : Lstm.Act.Idx → EReal) (Wx Wh : Lstm.Wt.Idx → EReal) (b : Lstm.Bias.Idx → EReal) (p : Fin 4096) (q : Fin 2048) :
    val_main_v17 (F := Ideal) X H Wx Wh b (ix2 p q) = Lstm.pre X H Wx Wh b p q := by
  rw [val_main_v17_apply, val_main_v14_apply, val_main_v12_apply, val_main_v13_apply, val_main_v16_apply, val_main_v15_apply,
    sum_eq_dot X Wx p q (lidx_main_v12 (ix2 p q)) (ridx_main_v12 (ix2 p q)) (fun _ => rfl) (fun _ => rfl) (fun _ => rfl) (fun _ => rfl),
    sum_eq_dot H Wh p q (lidx_main_v13 (ix2 p q)) (ridx_main_v13 (ix2 p q)) (fun _ => rfl) (fun _ => rfl) (fun _ => rfl) (fun _ => rfl),
    eq_ix1 (idx_main_v15 (idx_main_v16 (ix2 p q)))]
  rfl

/-- The output gate's pre-activation (`%29`), in the same way. -/
theorem pre_o (X H : Lstm.Act.Idx → EReal) (Wx Wh : Lstm.Wt.Idx → EReal) (b : Lstm.Bias.Idx → EReal) (p : Fin 4096) (q : Fin 2048) :
    val_main_v29 (F := Ideal) X H Wx Wh b (ix2 p q) = Lstm.pre X H Wx Wh b p q := by
  rw [val_main_v29_apply, val_main_v26_apply, val_main_v24_apply, val_main_v25_apply, val_main_v28_apply, val_main_v27_apply,
    sum_eq_dot X Wx p q (lidx_main_v24 (ix2 p q)) (ridx_main_v24 (ix2 p q)) (fun _ => rfl) (fun _ => rfl) (fun _ => rfl) (fun _ => rfl),
    sum_eq_dot H Wh p q (lidx_main_v25 (ix2 p q)) (ridx_main_v25 (ix2 p q)) (fun _ => rfl) (fun _ => rfl) (fun _ => rfl) (fun _ => rfl),
    eq_ix1 (idx_main_v27 (idx_main_v28 (ix2 p q)))]
  rfl

/-- The candidate's pre-activation (`%41`), in the same way. -/
theorem pre_c (X H : Lstm.Act.Idx → EReal) (Wx Wh : Lstm.Wt.Idx → EReal) (b : Lstm.Bias.Idx → EReal) (p : Fin 4096) (q : Fin 2048) :
    val_main_v41 (F := Ideal) X H Wx Wh b (ix2 p q) = Lstm.pre X H Wx Wh b p q := by
  rw [val_main_v41_apply, val_main_v38_apply, val_main_v36_apply, val_main_v37_apply, val_main_v40_apply, val_main_v39_apply,
    sum_eq_dot X Wx p q (lidx_main_v36 (ix2 p q)) (ridx_main_v36 (ix2 p q)) (fun _ => rfl) (fun _ => rfl) (fun _ => rfl) (fun _ => rfl),
    sum_eq_dot H Wh p q (lidx_main_v37 (ix2 p q)) (ridx_main_v37 (ix2 p q)) (fun _ => rfl) (fun _ => rfl) (fun _ => rfl) (fun _ => rfl),
    eq_ix1 (idx_main_v39 (idx_main_v40 (ix2 p q)))]
  rfl

/-! ## The logistic function and the three gates -/

/-- The reference spells the logistic function `1 / (1 + exp (-z))`, both ones being the f32 literal `0x3F800000`; on the
extended reals that expression is the definition of `Ideal.logistic z`. -/
theorem one_div_one_add_exp_neg (z : Ideal .f32) :
    FloatOps.hostDivf (FloatOps.ofBits .f32 0x3F800000#32)
      (FloatOps.addf (FloatOps.ofBits .f32 0x3F800000#32) (FloatOps.hostUnary .exp (FloatOps.hostNegf z))) = Ideal.logistic z := by
  rw [Ideal.hostDivf_def, Ideal.addf_def, Ideal.hostUnary_exp_def, Ideal.hostNegf_def, Ideal.negf_def, Ideal.ofBits_def,
    Ideal.ofBits_one_f32]
  rfl

/-- The input gate (`%11`): the logistic function, in the reference's spelling, of its pre-activation. -/
theorem gate_i (X H : Lstm.Act.Idx → EReal) (Wx Wh : Lstm.Wt.Idx → EReal) (b : Lstm.Bias.Idx → EReal) (p : Fin 4096) (q : Fin 2048) :
    val_main_v11 (F := Ideal) X H Wx Wh b (ix2 p q) = Ideal.logistic (Lstm.pre X H Wx Wh b p q) := by
  rw [val_main_v11_apply, val_main_v10_apply, val_main_cst_0_apply, val_main_v9_apply, val_main_v8_apply, val_main_cst_apply,
    val_main_v7_apply, val_main_v6_apply, pre_i, one_div_one_add_exp_neg]

/-- The forget gate (`%23`). -/
theorem gate_f (X H : Lstm.Act.Idx → EReal) (Wx Wh : Lstm.Wt.Idx → EReal) (b : Lstm.Bias.Idx → EReal) (p : Fin 4096) (q : Fin 2048) :
    val_main_v23 (F := Ideal) X H Wx Wh b (ix2 p q) = Ideal.logistic (Lstm.pre X H Wx Wh b p q) := by
  rw [val_main_v23_apply, val_main_v22_apply, val_main_cst_2_apply, val_main_v21_apply, val_main_v20_apply, val_main_cst_1_apply,
    val_main_v19_apply, val_main_v18_apply, pre_f, one_div_one_add_exp_neg]

/-- The output gate (`%35`). -/
theorem gate_o (X H : Lstm.Act.Idx → EReal) (Wx Wh : Lstm.Wt.Idx → EReal) (b : Lstm.Bias.Idx → EReal) (p : Fin 4096) (q : Fin 2048) :
    val_main_v35 (F := Ideal) X H Wx Wh b (ix2 p q) = Ideal.logistic (Lstm.pre X H Wx Wh b p q) := by
  rw [val_main_v35_apply, val_main_v34_apply, val_main_cst_4_apply, val_main_v33_apply, val_main_v32_apply, val_main_cst_3_apply,
    val_main_v31_apply, val_main_v30_apply, pre_o, one_div_one_add_exp_neg]

/-! ## The two results -/

/-- The reference's `%45` at `(p, q)`: the forget gate times the old cell state plus the input gate times the candidate. -/
theorem cell_at (x0 x1 x2 : (⟨S4096x2048, .f32⟩ : BufTy).Contents (Elt Ideal)) (x3 x4 : (⟨S2048x2048, .f32⟩ : BufTy).Contents (Elt Ideal)) (x5 : (⟨S2048, .f32⟩ : BufTy).Contents (Elt Ideal)) (x6 x7 : (⟨S2048x2048, .f32⟩ : BufTy).Contents (Elt Ideal)) (x8 : (⟨S2048, .f32⟩ : BufTy).Contents (Elt Ideal)) (x9 x10 : (⟨S2048x2048, .f32⟩ : BufTy).Contents (Elt Ideal)) (x11 : (⟨S2048, .f32⟩ : BufTy).Contents (Elt Ideal)) (x12 x13 : (⟨S2048x2048, .f32⟩ : BufTy).Contents (Elt Ideal)) (x14 : (⟨S2048, .f32⟩ : BufTy).Contents (Elt Ideal)) (p : Fin 4096) (q : Fin 2048) :
    val_main_v45 (F := Ideal) x0 x1 x2 x3 x4 x5 x6 x7 x8 x9 x10 x11 (ix2 p q) = Lstm.cell (inp x0 x1 x2 x3 x4 x5 x6 x7 x8 x9 x10 x11 x12 x13 x14) p q := by
  rw [val_main_v45_apply, val_main_v43_apply, val_main_v44_apply, val_main_v42_apply, gate_f, gate_i, pre_c,
    Ideal.addf_def, Ideal.mulf_def, Ideal.mulf_def, Ideal.hostUnary_tanh_def]
  rfl

/-- The reference's second result (`%45`) is the new cell state. -/
theorem ref_cell (x0 x1 x2 : (⟨S4096x2048, .f32⟩ : BufTy).Contents (Elt Ideal)) (x3 x4 : (⟨S2048x2048, .f32⟩ : BufTy).Contents (Elt Ideal)) (x5 : (⟨S2048, .f32⟩ : BufTy).Contents (Elt Ideal)) (x6 x7 : (⟨S2048x2048, .f32⟩ : BufTy).Contents (Elt Ideal)) (x8 : (⟨S2048, .f32⟩ : BufTy).Contents (Elt Ideal)) (x9 x10 : (⟨S2048x2048, .f32⟩ : BufTy).Contents (Elt Ideal)) (x11 : (⟨S2048, .f32⟩ : BufTy).Contents (Elt Ideal)) (x12 x13 : (⟨S2048x2048, .f32⟩ : BufTy).Contents (Elt Ideal)) (x14 : (⟨S2048, .f32⟩ : BufTy).Contents (Elt Ideal)) :
    val_main_v45 (F := Ideal) x0 x1 x2 x3 x4 x5 x6 x7 x8 x9 x10 x11 = Lstm.cellArr (inp x0 x1 x2 x3 x4 x5 x6 x7 x8 x9 x10 x11 x12 x13 x14) := by
  funext i
  obtain ⟨p, q, rfl⟩ : ∃ (p : Fin 4096) (q : Fin 2048), i = ix2 p q := ⟨i 0, i 1, eq_ix2 i⟩
  exact cell_at x0 x1 x2 x3 x4 x5 x6 x7 x8 x9 x10 x11 x12 x13 x14 p q

/-- The reference's first result (`%47`) is the new hidden state. -/
theorem ref_hidden (x0 x1 x2 : (⟨S4096x2048, .f32⟩ : BufTy).Contents (Elt Ideal)) (x3 x4 : (⟨S2048x2048, .f32⟩ : BufTy).Contents (Elt Ideal)) (x5 : (⟨S2048, .f32⟩ : BufTy).Contents (Elt Ideal)) (x6 x7 : (⟨S2048x2048, .f32⟩ : BufTy).Contents (Elt Ideal)) (x8 : (⟨S2048, .f32⟩ : BufTy).Contents (Elt Ideal)) (x9 x10 : (⟨S2048x2048, .f32⟩ : BufTy).Contents (Elt Ideal)) (x11 : (⟨S2048, .f32⟩ : BufTy).Contents (Elt Ideal)) (x12 x13 : (⟨S2048x2048, .f32⟩ : BufTy).Contents (Elt Ideal)) (x14 : (⟨S2048, .f32⟩ : BufTy).Contents (Elt Ideal)) :
    val_main_v47 (F := Ideal) x0 x1 x2 x3 x4 x5 x6 x7 x8 x9 x10 x11 x12 x13 x14 = Lstm.hiddenArr (inp x0 x1 x2 x3 x4 x5 x6 x7 x8 x9 x10 x11 x12 x13 x14) := by
  funext i
  obtain ⟨p, q, rfl⟩ : ∃ (p : Fin 4096) (q : Fin 2048), i = ix2 p q := ⟨i 0, i 1, eq_ix2 i⟩
  rw [val_main_v47_apply, val_main_v46_apply, gate_o, cell_at x0 x1 x2 x3 x4 x5 x6 x7 x8 x9 x10 x11 x12 x13 x14 p q, Ideal.mulf_def, Ideal.hostUnary_tanh_def]
  rfl

end Cert.ReferenceIdeal.RefValue

end
-- ==== Proof.lean ====
/-
  An LSTM cell on a batch of 4096 rows, 2048 inputs and 2048 hidden units: a tiled kernel against the plain jnp
  program, as exact arithmetic on the extended reals.

  The kernel works on 1024 × 512 output tiles. For each tile it walks the contraction axis in 8 blocks of 256; at
  each block it adds to four running tiles (one per gate) the block's part of `x · Wx` and then its part of `h · Wh`,
  starting from zero at the first block. At the last block it adds the biases, applies the logistic function (or
  tanh) and writes the tile of the new cell state `σ(f) · c + σ(i) · tanh(g)` and of the new hidden state
  `σ(o) · tanh(c')`. The reference computes each gate's two whole products, adds them and the bias, spells the
  logistic function `1 / (1 + exp (-z))`, and combines the gates the same way.

  Both are the function `Lstm.cellArr` / `Lstm.hiddenArr` of the fifteen arguments (Proof/Spec.lean): the kernel
  because a sum of 2048 terms taken in 8 consecutive blocks of 256 onto one running value is the whole sum — only
  commutativity and associativity of `+`, which hold on all of the extended reals, so the finiteness of the inputs
  is never used — (Proof/CellRun.lean), the reference by reading its operations at an index, the logistic function
  being `1 / (1 + exp (-z))` by definition (Proof/RefCell.lean). The change of float format the kernel's host side
  applies to `x`, `h` and the weights is the identity on the extended reals.

  The three frame claims are the generated frame proofs (for the reference: its generated run with the results
  dropped); the idealization rewrote nothing, so that claim is trivial.
-/
import proofs.«177769_j16183436772221_2_alg».proof.Defs
import proofs.«177769_j16183436772221_2_alg».proof.Proof.Gen.Kernel
import proofs.«177769_j16183436772221_2_alg».proof.Proof.Gen.Kernel.Skeleton
import proofs.«177769_j16183436772221_2_alg».proof.Proof.Gen.Kernel.Launch
import proofs.«177769_j16183436772221_2_alg».proof.Proof.Gen.Kernel.Points
import proofs.«177769_j16183436772221_2_alg».proof.Proof.Gen.Kernel.Frame
import proofs.«177769_j16183436772221_2_alg».proof.Proof.Gen.KernelIdeal
import proofs.«177769_j16183436772221_2_alg».proof.Proof.Gen.KernelIdeal.Skeleton
import proofs.«177769_j16183436772221_2_alg».proof.Proof.Gen.KernelIdeal.Launch
import proofs.«177769_j16183436772221_2_alg».proof.Proof.Gen.KernelIdeal.Points
import proofs.«177769_j16183436772221_2_alg».proof.Proof.Gen.KernelIdeal.Frame
import proofs.«177769_j16183436772221_2_alg».proof.Proof.Gen.ReferenceIdeal
import proofs.«177769_j16183436772221_2_alg».proof.Proof.Gen.Pre_finite_inputs
import proofs.«177769_j16183436772221_2_alg».proof.Proof.Gen.KernelIdeal.Value
import proofs.«177769_j16183436772221_2_alg».proof.Proof.Gen.ReferenceIdeal.Run
import proofs.«177769_j16183436772221_2_alg».proof.Proof.Gen.ReferenceIdeal.Read
import proofs.«177769_j16183436772221_2_alg».proof.Proof.CellRun
import proofs.«177769_j16183436772221_2_alg».proof.Proof.RefCell
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference runs and leaves its arguments as they were: its run, the two results dropped. -/
theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the fifteen arguments the kernel and the reference end with the same two arrays:
    the new hidden state and the new cell state of the LSTM cell. -/
theorem algebraic : Cert.algebraic_KernelIdeal_ReferenceIdeal := by
  intro m ρ m' ρ' _ hagree
  refine ⟨fun c => Lstm.hiddenArr (Cert.KernelIdeal.Blocks.inputs m c), fun c => Lstm.cellArr (Cert.KernelIdeal.Blocks.inputs m c),
    Cert.KernelIdeal.CellRun.run m ρ, ?_⟩
  refine (θ_run Cert.ReferenceIdeal.defs _ _).mono (fun _ h c => ?_) (Cert.ReferenceIdeal.Value.run (F := Ideal) m' ρ')
  have hI : Cert.ReferenceIdeal.RefValue.inp (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) = Cert.KernelIdeal.Blocks.inputs m c := by
    obtain ⟨e0, e1, e2, e3, e4, e5, e6, e7, e8, e9, e10, e11, e12, e13, e14⟩ := hagree c
    show Lstm.Inputs.mk _ _ _ _ _ _ _ _ _ _ _ _ _ _ _ = Lstm.Inputs.mk _ _ _ _ _ _ _ _ _ _ _ _ _ _ _
    rw [e0, e1, e2, e3, e4, e5, e6, e7, e8, e9, e10, e11, e12, e13, e14]
  refine ⟨(h c).1.trans ?_, (h c).2.1.trans ?_, (h c).2.2⟩
  · exact (Cert.ReferenceIdeal.RefValue.ref_hidden (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans (congrArg Lstm.hiddenArr hI)
  · exact (Cert.ReferenceIdeal.RefValue.ref_cell (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14))).trans (congrArg Lstm.cellArr hI)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
